-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x192 : Shape := ⟨2, ![128, 192]⟩
abbrev S192 : Shape := ⟨1, ![192]⟩
abbrev S192x64 : Shape := ⟨2, ![192, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x192 : S_.BroadcastsInDim S128x192 (![] : Fin 0 → Fin S128x192.rank)
  reducesTo_S128x192_S_d0_1 : S128x192.ReducesTo [0, 1] S_
  bcast_S_S192 : S_.BroadcastsInDim S192 (![] : Fin 0 → Fin S192.rank)
  reducesTo_S192_S_d0 : S192.ReducesTo [0] S_
  bcast_S_S192x64 : S_.BroadcastsInDim S192x64 (![] : Fin 0 → Fin S192x64.rank)
  reducesTo_S192x64_S_d0_1 : S192x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S192x64 .f32) (main_arg14 : FVec F S64 .f32) (main_arg15 : FVec F S64x1 .f32) (main_arg16 : FVec F S1 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S192x64 .f32 := Host.absf main_arg13
  let main_cst_20 : FVec F S_ .f32 := constant S_ .f32 0x7F800000#32
  let main_v55 : FVec F S192x64 .f32 := broadcastInDim S192x64 ![] bcast_S_S192x64 main_cst_20
  let main_v56 : IVec S192x64 1 := cmpf .olt main_v54 main_v55
  let main_c_21 : IVec S_ 1 := constantI S_ 1 1#1
  let main_v57 : IVec S_ 1 := (fun x v => Host.reduce IntOp.andi x v reducesTo_S192x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S128x192 .f32) (main_arg10 : FVec F S128x192 .f32) (main_arg11 : FVec F S192 .f32) (main_arg12 : FVec F S192x64 .f32) (main_arg13 : FVec F S192x64 .f32) (main_arg14 : FVec F S64 .f32) (main_arg15 : FVec F S64x1 .f32) (main_arg16 : FVec F S1 .f32) (main_v33 : IVec S_ 1) : IVec S_ 1 :=
  let main_v34 : FVec F S128x192 .f32 := Host.absf main_arg9
  let main_cst_12 : FVec F S_ .f32 := constant S_ .f32 0x7F800000#32
  let main_v35 : FVec F S128x192 .f32 := broadcastInDim S128x192 ![] bcast_S_S128x192 main_cst_12
  let main_v36 : IVec S128x192 1 := cmpf .olt main_v34 main_v35
  let main_c_13 : IVec S_ 1 := constantI S_ 1 1#1
  let main_v37 : IVec S_ 1 := (fun x v => Host.reduce IntOp.andi x v reducesTo_S128x192_S_d0_1 h_S_) main_v36 main_c_13
  let main_v38 : IVec S_ 1 := andi main_v33 main_v37
  let main_v39 : FVec F S128x192 .f32 := Host.absf main_arg10
  let main_cst_14 : FVec F S_ .f32 := constant S_ .f32 0x7F800000#32
  let main_v40 : FVec F S128x192 .f32 := broadcastInDim S128x192 ![] bcast_S_S128x192 main_cst_14
  let main_v41 : IVec S128x192 1 := cmpf .olt main_v39 main_v40
  let main_c_15 : IVec S_ 1 := constantI S_ 1 1#1
  let main_v42 : IVec S_ 1 := (fun x v => Host.reduce IntOp.andi x v reducesTo_S128x192_S_d0_1 h_S_) main_v41 main_c_15
  let main_v43 : IVec S_ 1 := andi main_v38 main_v42
  let main_v44 : FVec F S192 .f32 := Host.absf main_arg11
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S192x64 .f32 := Host.absf main_arg12
  let main_cst_18 : FVec F S_ .f32 := constant S_ .f32 0x7F800000#32
  let main_v50 : FVec F S192x64 .f32 := broadcastInDim S192x64 ![] bcast_S_S192x64 main_cst_18
  fn_part3 (F := F) main_arg13 main_arg14 main_arg15 main_arg16 main_v48 main_v49 main_v50

def fn_part1 {F : FTy → Type} [FloatOps F] (main_arg6 : FVec F S64x128 .f32) (main_arg7 : FVec F S64x128 .f32) (main_arg8 : FVec F S128 .f32) (main_arg9 : FVec F S128x192 .f32) (main_arg10 : FVec F S128x192 .f32) (main_arg11 : FVec F S192 .f32) (main_arg12 : FVec F S192x64 .f32) (main_arg13 : FVec F S192x64 .f32) (main_arg14 : FVec F S64 .f32) (main_arg15 : FVec F S64x1 .f32) (main_arg16 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x64 .f32) (main_arg4 : FVec F S128x64 .f32) (main_arg5 : FVec F S64 .f32) (main_arg6 : FVec F S64x128 .f32) (main_arg7 : FVec F S64x128 .f32) (main_arg8 : FVec F S128 .f32) (main_arg9 : FVec F S128x192 .f32) (main_arg10 : FVec F S128x192 .f32) (main_arg11 : FVec F S192 .f32) (main_arg12 : FVec F S192x64 .f32) (main_arg13 : FVec F S192x64 .f32) (main_arg14 : FVec F S64 .f32) (main_arg15 : FVec F S64x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x192 : Shape := ⟨2, ![128, 192]⟩
abbrev S192 : Shape := ⟨1, ![192]⟩
abbrev S192x64 : Shape := ⟨2, ![192, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x128 : Shape := ⟨2, ![1, 128]⟩
abbrev S1x192 : Shape := ⟨2, ![1, 192]⟩
abbrev S50000x192 : Shape := ⟨2, ![50000, 192]⟩
abbrev S5000x192 : Shape := ⟨2, ![5000, 192]⟩
abbrev S800000x192 : Shape := ⟨2, ![800000, 192]⟩
abbrev S64x64 : Shape := ⟨2, ![64, 64]⟩
abbrev S50000x1 : Shape := ⟨2, ![50000, 1]⟩
abbrev S1x1 : Shape := ⟨2, ![1, 1]⟩

abbrev nBuf : Space → Nat
  | .hbm => 101
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S64x128, .f32⟩
  | .hbm, ⟨8, _⟩ => ⟨S128, .f32⟩
  | .hbm, ⟨9, _⟩ => ⟨S128x192, .f32⟩
  | .hbm, ⟨10, _⟩ => ⟨S128x192, .f32⟩
  | .hbm, ⟨11, _⟩ => ⟨S192, .f32⟩
  | .hbm, ⟨12, _⟩ => ⟨S192x64, .f32⟩
  | .hbm, ⟨13, _⟩ => ⟨S192x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x64, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S1x192, .f32⟩
  | .hbm, ⟨65, _⟩ => ⟨S50000x192, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x192, .f32⟩
  | .hbm, ⟨75, _⟩ => ⟨S_, .f32⟩
  | .hbm, ⟨76, _⟩ => ⟨S50000x192, .f32⟩
  | .hbm, ⟨77, _⟩ => ⟨S800000x1, .i32⟩
  | .hbm, ⟨78, _⟩ => ⟨S50000x192, .f32⟩
  | .hbm, ⟨79, _⟩ => ⟨S1x64, .f32⟩
  | .hbm, ⟨80, _⟩ => ⟨S50000x64, .f32⟩
  | .hbm, ⟨81, _⟩ => ⟨S_, .f32⟩
  | .hbm, ⟨82, _⟩ => ⟨S64x64, .f32⟩
  | .hbm, ⟨83, _⟩ => ⟨S50000x1, .i32⟩
  | .hbm, ⟨84, _⟩ => ⟨S64x64, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S64, .f32⟩
  | .hbm, ⟨89, _⟩ => ⟨S50000x1, .i32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x64, .f32⟩
  | .hbm, ⟨96, _⟩ => ⟨S64x64, .f32⟩
  | .hbm, ⟨97, _⟩ => ⟨S64x1, .f32⟩
  | .hbm, ⟨98, _⟩ => ⟨S1x1, .f32⟩
  | .hbm, ⟨99, _⟩ => ⟨S64x1, .f32⟩
  | .hbm, ⟨100, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x192, .f32⟩
  | .local _ .vmem, ⟨23, _⟩ => ⟨S128x192, .f32⟩
  | .local _ .vmem, ⟨24, _⟩ => ⟨S1x192, .f32⟩
  | .local _ .vmem, ⟨25, _⟩ => ⟨S5000x192, .f32⟩
  | .local _ .vmem, ⟨26, _⟩ => ⟨S5000x192, .f32⟩
  | .local _ .vmem, ⟨27, _⟩ => ⟨S5000x192, .f32⟩
  | .local _ .vmem, ⟨28, _⟩ => ⟨S5000x192, .f32⟩
  | .local _ .vmem, ⟨29, _⟩ => ⟨S5000x192, .f32⟩
  | .local _ .vmem, ⟨30, _⟩ => ⟨S5000x192, .f32⟩
  | .local _ .vmem, ⟨31, _⟩ => ⟨S192x64, .f32⟩
  | .local _ .vmem, ⟨32, _⟩ => ⟨S192x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S192x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S192_S1x192 : S192.ShapeCasts S1x192
  inb_S128x192_S128x192_0_0 : ∀ a, (![0, 0] : Fin 2 → Nat) a + S128x192.size a ≤ S128x192.size a
  h_S128x192 : 0 < S128x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  bcast_S_S50000x192 : S_.BroadcastsInDim S50000x192 (![] : Fin 0 → Fin S50000x192.rank)
  shapeCasts_S5000x192_S5000x192 : S5000x192.ShapeCasts S5000x192
  inb_S192x64_S192x64_0_0 : ∀ a, (![0, 0] : Fin 2 → Nat) a + S192x64.size a ≤ S192x64.size a
  h_S192x64 : 0 < S192x64.numel
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x192_S5000x192_1_0_0_1_n_n_wf : DotDims.WF S5000x128 S128x192 S5000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S5000x192_S192x64_S5000x64_1_0_0_1_n_n_wf : DotDims.WF S5000x192 S192x64 S5000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x192.size a ≤ S128x192.size a
  hwx2_2 : ∀ i : grid2.Coords, EltTy.bits .f32 = 32 ∨ (Rect.block (s := S128x192) S128x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x192.size a ≤ S128x192.size a
  hwx2_3 : ∀ i : grid2.Coords, EltTy.bits .f32 = 32 ∨ (Rect.block (s := S128x192) S128x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x192.size a ≤ S50000x192.size a
  hwx2_5 : ∀ i : grid2.Coords, EltTy.bits .f32 = 32 ∨ (Rect.block (s := S50000x192) S5000x192.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x192.size a ≤ S50000x192.size a
  hwx3_0 : ∀ i : grid3.Coords, EltTy.bits .f32 = 32 ∨ (Rect.block (s := S50000x192) S5000x192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x192.size a ≤ S50000x192.size a
  hwx3_1 : ∀ i : grid3.Coords, EltTy.bits .f32 = 32 ∨ (Rect.block (s := S50000x192) S5000x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S192x64.size a ≤ S192x64.size a
  hwx3_2 : ∀ i : grid3.Coords, EltTy.bits .f32 = 32 ∨ (Rect.block (s := S192x64) S192x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x64.size a ≤ S192x64.size a
  hwx3_3 : ∀ i : grid3.Coords, EltTy.bits .f32 = 32 ∨ (Rect.block (s := S192x64) S192x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x192.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S192x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S192x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x192 : Shape := ⟨2, ![128, 192]⟩
abbrev S192 : Shape := ⟨1, ![192]⟩
abbrev S192x64 : Shape := ⟨2, ![192, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S1x128 : Shape := ⟨2, ![1, 128]⟩
abbrev S50000x192 : Shape := ⟨2, ![50000, 192]⟩
abbrev S1x192 : Shape := ⟨2, ![1, 192]⟩
abbrev S800000x192 : Shape := ⟨2, ![800000, 192]⟩
abbrev S64x64 : Shape := ⟨2, ![64, 64]⟩
abbrev S50000x1 : Shape := ⟨2, ![50000, 1]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S64x128, .f32⟩
  | .hbm, ⟨8, _⟩ => ⟨S128, .f32⟩
  | .hbm, ⟨9, _⟩ => ⟨S128x192, .f32⟩
  | .hbm, ⟨10, _⟩ => ⟨S128x192, .f32⟩
  | .hbm, ⟨11, _⟩ => ⟨S192, .f32⟩
  | .hbm, ⟨12, _⟩ => ⟨S192x64, .f32⟩
  | .hbm, ⟨13, _⟩ => ⟨S192x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x192, .f32⟩
  | .hbm, ⟨79, _⟩ => ⟨S1x192, .f32⟩
  | .hbm, ⟨80, _⟩ => ⟨S50000x192, .f32⟩
  | .hbm, ⟨81, _⟩ => ⟨S50000x192, .f32⟩
  | .hbm, ⟨82, _⟩ => ⟨S50000x192, .f32⟩
  | .hbm, ⟨83, _⟩ => ⟨S50000x192, .f32⟩
  | .hbm, ⟨84, _⟩ => ⟨S_, .f32⟩
  | .hbm, ⟨85, _⟩ => ⟨S50000x192, .f32⟩
  | .hbm, ⟨86, _⟩ => ⟨S50000x192, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x192, .f32⟩
  | .hbm, ⟨96, _⟩ => ⟨S_, .f32⟩
  | .hbm, ⟨97, _⟩ => ⟨S50000x192, .f32⟩
  | .hbm, ⟨98, _⟩ => ⟨S800000x1, .i32⟩
  | .hbm, ⟨99, _⟩ => ⟨S50000x192, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S64x64, .f32⟩
  | .hbm, ⟨108, _⟩ => ⟨S50000x1, .i32⟩
  | .hbm, ⟨109, _⟩ => ⟨S64x64, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S64, .f32⟩
  | .hbm, ⟨114, _⟩ => ⟨S50000x1, .i32⟩
  | .hbm, ⟨115, _⟩ => ⟨S64, .f32⟩
  | .hbm, ⟨116, _⟩ => ⟨S_, .f32⟩
  | .hbm, ⟨117, _⟩ => ⟨S64, .f32⟩
  | .hbm, ⟨118, _⟩ => ⟨S64, .f32⟩
  | .hbm, ⟨119, _⟩ => ⟨S64x1, .f32⟩
  | .hbm, ⟨120, _⟩ => ⟨S64x64, .f32⟩
  | .hbm, ⟨121, _⟩ => ⟨S64x64, .f32⟩
  | .hbm, ⟨122, _⟩ => ⟨S64x1, .f32⟩
  | .hbm, ⟨123, _⟩ => ⟨S1x1, .f32⟩
  | .hbm, ⟨124, _⟩ => ⟨S64x1, .f32⟩
  | .hbm, ⟨125, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_cst : Ref sig .tc := ⟨.hbm, 62, rfl⟩
abbrev main_call1_v0 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_cst : Ref sig .tc := ⟨.hbm, 84, rfl⟩
abbrev main_call2_v0 : Ref sig .tc := ⟨.hbm, 85, rfl⟩
abbrev main_v54 : Ref sig .tc := ⟨.hbm, 86, rfl⟩
abbrev main_c_7 : Ref sig .tc := ⟨.hbm, 87, rfl⟩
abbrev main_v55 : Ref sig .tc := ⟨.hbm, 88, rfl⟩
abbrev main_v56 : Ref sig .tc := ⟨.hbm, 89, rfl⟩
abbrev main_c_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_cst_12 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S_S50000x192 : S_.BroadcastsInDim S50000x192 (![] : Fin 0 → Fin S50000x192.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x192_S50000x192_1_0_0_1_n_n_wf : DotDims.WF S50000x128 S128x192 S50000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S50000x192_S192x64_S50000x64_1_0_0_1_n_n_wf : DotDims.WF S50000x192 S192x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x192_S50000x192_1_0_0_1_n_n : DotDims S50000x128 S128x192 S50000x192 where
  lhsContracting := [1]
  rhsContracting := [0]
  lhsNonContracting := [0]
  rhsNonContracting := [1]
  lhsBatch := []
  rhsBatch := []
  wf := dot_S50000x128_S128x192_S50000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KernelRun.lean ====
/-
  The kernel's program run once more, with its result named.

  The program is five stretches of host operations around four regions. The generated frame follows the device's
  buffer contents through these nine segments (the contents after each stretch is the stretch's operations applied
  to the contents before it; after each region, the region's arrays at what its write-backs leave and every other
  buffer as it was) and reads the final state against the last of them, keeping only the argument arrays. Here the
  same launch is read at one more buffer: the result buffer ends holding the last boundary's contents at it.
-/
import proofs.«129375_j25383256719506_1_alg».proof.Proof.Gen.KernelIdeal.Frame

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)

end Cert.KernelIdeal.Valued

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibPadReads.lean ====
/-
  Small re-layings read at an entry, over arbitrary extents: an array padded at the END of its leading axis (rows appended
  to a matrix, entries appended to a vector; no padding in front, none between the entries) reads the original inside the
  original's extent, whatever the padding value; a vector laid out as a one-row array reads the vector; the leading
  columns of a two-axis array, sliced out from offset zero, read the array.
-/
import Idealize.ShloMosaic.Lib.Pipeline.Value
import Idealize.ShloMosaic.Lib.ValueIdx

noncomputable section

namespace Cert.Lib.PadReads

open Idealize.ShloMosaic Idealize.ShloMosaic.ValueIdx

/-- An `[a, b]` matrix with `hi` rows appended (to `[t, b]`) reads, at row `p < a`, the matrix at row `p`. -/
theorem pad_tail_rows_apply {α : Type} {a b t hi : ℕ} (x : (⟨2, ![a, b]⟩ : Shape).Idx → α) {u : Shape} (v : u.Idx → α)
    (h : (⟨2, ![a, b]⟩ : Shape).Pads ![0, 0] ![hi, 0] ![0, 0] ⟨2, ![t, b]⟩) (hu : 0 < u.numel) (p : Fin a) (q : Fin b)
    (hp : p.val < t) :
    pad ⟨2, ![t, b]⟩ ![0, 0] ![hi, 0] ![0, 0] x v h hu (ix2 (⟨p.val, hp⟩ : Fin t) q) = x (ix2 p q) := by
  unfold pad
  rw [dif_pos (fun ax => by
    match ax with
    | ⟨0, _⟩ => exact ⟨Nat.zero_le _, Nat.mod_one _, by show (p.val - 0) / (0 + 1) < a; have := p.isLt; simpa using this⟩
    | ⟨1, _⟩ => exact ⟨Nat.zero_le _, Nat.mod_one _, by show (q.val - 0) / (0 + 1) < b; have := q.isLt; simpa using this⟩)]
  refine congrArg x (funext fun ax => Fin.ext ?_)
  match ax with
  | ⟨0, _⟩ => show (p.val - 0) / (0 + 1) = p.val; simp
  | ⟨1, _⟩ => show (q.val - 0) / (0 + 1) = q.val; simp

/-- An `[a]` vector with `hi` entries appended (to `[t]`) reads, at `p < a`, the vector at `p`. -/
theorem pad_tail_vec_apply {α : Type} {a t hi : ℕ} (x : (⟨1, ![a]⟩ : Shape).Idx → α) {u : Shape} (v : u.Idx → α)
    (h : (⟨1, ![a]⟩ : Shape).Pads ![0] ![hi] ![0] ⟨1, ![t]⟩) (hu : 0 < u.numel) (p : Fin a) (hp : p.val < t) :
    pad ⟨1, ![t]⟩ ![0] ![hi] ![0] x v h hu (ix1 (⟨p.val, hp⟩ : Fin t)) = x (ix1 p) := by
  unfold pad
  rw [dif_pos (fun ax => by
    match ax with
    | ⟨0, _⟩ => exact ⟨Nat.zero_le _, Nat.mod_one _, by show (p.val - 0) / (0 + 1) < a; have := p.isLt; simpa using this⟩)]
  refine congrArg x (funext fun ax => Fin.ext ?_)
  match ax with
  | ⟨0, _⟩ => show (p.val - 0) / (0 + 1) = p.val; simp

/-- A `[b]` vector laid out as a `[1, b]` row reads, at `(0, q)`, the vector at `q`: the same row-major position. -/
theorem reshape_row_apply {α : Type} {b : ℕ} (x : (⟨1, ![b]⟩ : Shape).Idx → α)
    (h : (⟨1, ![b]⟩ : Shape).ShapeCasts ⟨2, ![1, b]⟩) (q : Fin b) :
    shapeCast ⟨2, ![1, b]⟩ x h (ix2 (0 : Fin 1) q) = x (ix1 q) :=
  shapeCast_apply x h _ (ix1 q) (by
    rw [Shape.rowMajor_val_one, Shape.rowMajor_val_two]
    show q.val = 0 * b + q.val
    omega)

/-- The leading `b'` columns of an `[a, b]` array, sliced out from offset zero, read the array. -/
theorem slice_lead_cols_apply {α : Type} {a b b' : ℕ} (Y : (⟨2, ![a, b]⟩ : Shape).Idx → α)
    (h : (⟨2, ![a, b]⟩ : Shape).Slices ![0, 0] ⟨2, ![a, b']⟩) (n : Fin a) (j : Fin b') (hj : j.val < b) :
    extractStridedSlice ⟨2, ![a, b']⟩ ![0, 0] Y h (ix2 n j) = Y (ix2 n (⟨j.val, hj⟩ : Fin b)) := by
  refine extractStridedSlice_apply ![0, 0] Y h _ (ix2 n (⟨j.val, hj⟩ : Fin b)) fun ax => ?_
  match ax with
  | ⟨0, _⟩ => show n.val = 0 + n.val; omega
  | ⟨1, _⟩ => show j.val = 0 + j.val; omega

end Cert.Lib.PadReads

end
-- ==== Proof.LibRowBroadcastInDim.lean ====
/-
  A one-row array spread over many rows by the host's broadcast along both axes, read at an index, over arbitrary
  extents: a `[1, b]` row broadcast to `[a, b]` reads, at `(e, c)`, the row at `(0, c)`. (The column form, an `[a, 1]`
  column broadcast to `[a, b]`, is in LibEdgeReads; the kernel's `vector.broadcast` of a row is the library's.)
-/
import Idealize.ShloMosaic.Lib.Pipeline.Value
import Idealize.ShloMosaic.Lib.ValueIdx

namespace Cert.Lib.RowBroadcastInDim

open Idealize.ShloMosaic Idealize.ShloMosaic.ValueIdx

variable {α : Type}

/-- A row broadcast down the rows: at `(e, c)` the row at `(0, c)`. -/
theorem row_broadcast_apply {a b : ℕ} (x : (⟨2, ![1, b]⟩ : Shape).Idx → α)
    (h : (⟨2, ![1, b]⟩ : Shape).BroadcastsInDim ⟨2, ![a, b]⟩ ![0, 1]) (e : Fin a) (c : Fin b) :
    broadcastInDim ⟨2, ![a, b]⟩ ![0, 1] h x (ix2 e c) = x (ix2 (0 : Fin 1) c) :=
  broadcastInDim_apply _ h x _ _ fun d => by
    match d with
    | ⟨0, _⟩ =>
      show (0 : ℕ) = if (1 : ℕ) = 1 then 0 else e.val
      rw [if_pos rfl]
    | ⟨1, _⟩ =>
      show c.val = if b = 1 then 0 else c.val
      split
      · have := c.isLt; omega
      · rfl

end Cert.Lib.RowBroadcastInDim
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibColumnReshape.lean ====
/-
  Two re-layings of small-rank arrays read at an index, over arbitrary extents: an `[a]` vector reshaped to an
  `[a, 1]` column, and the transpose of an `[a, b]` array.
-/
import Idealize.ShloMosaic.Lib.Pipeline.Value
import Idealize.ShloMosaic.Lib.ValueIdx

noncomputable section

namespace Cert.Lib.ColumnReshape

open Idealize.ShloMosaic Idealize.ShloMosaic.ValueIdx

/-- An `[a]` vector reshaped to an `[a, 1]` column reads, at `(o, 0)`, the vector at `o`: the same row-major position. -/
theorem reshape_col_apply {α : Type} {a : ℕ} (x : (⟨1, ![a]⟩ : Shape).Idx → α)
    (h : (⟨1, ![a]⟩ : Shape).ShapeCasts ⟨2, ![a, 1]⟩) (o : Fin a) :
    shapeCast ⟨2, ![a, 1]⟩ x h (ix2 o (0 : Fin 1)) = x (ix1 o) :=
  shapeCast_apply x h _ (ix1 o) (by
    rw [Shape.rowMajor_val_one, Shape.rowMajor_val_two]
    show o.val = o.val * 1 + 0
    omega)

/-- The transpose of an `[a, b]` array reads, at `(p, q)`, the array at `(q, p)`. -/
theorem transpose_ab_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun bx => match bx with
    | ⟨0, _⟩ => rfl
    | ⟨1, _⟩ => rfl

end Cert.Lib.ColumnReshape

end
-- ==== Proof.LibReshapeBroadcast.lean ====
/-
  A reshape that adds a unit axis is the broadcast that adds it, over arbitrary extents and any element type; and a
  scalar splat read at an index.

  * A scalar splat to any shape reads the scalar's value at every index.
  * A vector of length a laid out as an [a, 1] column by a reshape is the same array as the vector made a column by
    a broadcast along axis 0: both read the vector at e at the index (e, 0).
  * A vector of length b laid out as a [1, b] row by a reshape is the same array as the vector made a row by a
    broadcast along axis 1: both read the vector at q at the index (0, q).
-/
import Idealize.ShloMosaic.Lib.Pipeline.Value
import Idealize.ShloMosaic.Lib.ValueIdx
import proofs.«129375_j25383256719506_1_alg».proof.Proof.LibEdgeReads
import proofs.«129375_j25383256719506_1_alg».proof.Proof.LibColumnReshape
import proofs.«129375_j25383256719506_1_alg».proof.Proof.LibPadReads

noncomputable section

namespace Cert.Lib.ReshapeBroadcast

open Idealize.ShloMosaic Idealize.ShloMosaic.ValueIdx

/-- A float scalar constant broadcast to any shape reads, everywhere, the extended real its word encodes. -/
theorem splat_apply {t : Shape} (h : (⟨0, ![]⟩ : Shape).BroadcastsInDim t ![]) (w : BitVec (FTy.bits .f32)) (j : t.Idx) :
    broadcastInDim t ![] h (constant (F := Ideal) ⟨0, ![]⟩ .f32 w) j = Ideal.ofBits .f32 w :=
  (broadcastInDim_apply (s := ⟨0, ![]⟩) ![] h _ j (fun a => a.elim0) (fun a => a.elim0)).trans rfl

/-- A vector made a row by a broadcast along axis 1: at (u, q) the vector at q. -/
theorem row_of_vector_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x _ _ fun d => by
    match d with
    | ⟨0, _⟩ =>
      show q.val = if b = 1 then 0 else q.val
      split
      · have := q.isLt; omega
      · rfl

/-- The reshape of a vector to a column and its broadcast to a column are one array. -/
theorem reshape_col_eq_broadcast {α : Type} {a : ℕ} (x : (⟨1, ![a]⟩ : Shape).Idx → α)
    (hs : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hs = broadcastInDim ⟨2, ![a, 1]⟩ ![0] hb x := by
  funext j
  obtain ⟨e, u, rfl⟩ : ∃ (e : Fin a) (u : Fin 1), j = ix2 e u := ⟨j 0, j 1, eq_ix2 j⟩
  obtain rfl : u = 0 := Subsingleton.elim _ _
  rw [Cert.Lib.ColumnReshape.reshape_col_apply, Cert.Lib.EdgeReads.column_of_vector_apply]

/-- The reshape of a vector to a row and its broadcast to a row are one array. -/
theorem reshape_row_eq_broadcast {α : Type} {b : ℕ} (x : (⟨1, ![b]⟩ : Shape).Idx → α)
    (hs : (⟨1, ![b]⟩ : Shape).ShapeCasts ⟨2, ![1, b]⟩) (hb : (⟨1, ![b]⟩ : Shape).BroadcastsInDim ⟨2, ![1, b]⟩ ![1]) :
    shapeCast ⟨2, ![1, b]⟩ x hs = broadcastInDim ⟨2, ![1, b]⟩ ![1] hb x := by
  funext j
  obtain ⟨u, q, rfl⟩ : ∃ (u : Fin 1) (q : Fin b), j = ix2 u q := ⟨j 0, j 1, eq_ix2 j⟩
  obtain rfl : u = 0 := Subsingleton.elim _ _
  rw [Cert.Lib.PadReads.reshape_row_apply, row_of_vector_apply]

end Cert.Lib.ReshapeBroadcast

end
-- ==== Proof.LibCombineLayer.lean ====
/-
  A two-product affine layer, and its positive part, over arbitrary extents and on every extended real.

  For two row-indexed feature arrays a and h (both [M, K]: think of a as the sum of each node's neighbours' features and
  h as the node's own), two weight matrices wa and wh ([K, N]) and a bias row b ([1, N]), the layer's entry (r, c) is

      (sum_k a(r,k) * wa(k,c)  +  sum_k h(r,k) * wh(k,c))  +  b(0,c),

  and its positive part is the maximum of that entry and a fixed value z.

  * A row of the layer depends only on the same row of a and of h: a block of rows of the layer is the layer of the
    blocks of rows.
  * The matrix unit's spelling (each operand first rounded to a narrower float format, which changes nothing at the
    ideal values; each product accumulated from zero; the two products added; the bias row spread down the rows and
    added; the maximum against a splat value) is the layer on the block.
  * The host's spelling adds the bias BEFORE the second product, (a.wa + b) + h.wh, with the bias given as a vector
    spread first to a row and then down the rows. Addition of extended reals is commutative and associative with no
    finiteness needed, so this is the same layer with the vector laid out as a row.
-/
import Idealize.ShloMosaic.PureOps.Ideal.Laws
import Idealize.ShloMosaic.Lib.ValueIdx
import Idealize.ShloMosaic.Lib.ValueLayout
import Idealize.ShloMosaic.Lib.Pipeline.Value
import proofs.«129375_j25383256719506_1_alg».proof.Proof.LibPlainDot
import proofs.«129375_j25383256719506_1_alg».proof.Proof.LibPadReads
import proofs.«129375_j25383256719506_1_alg».proof.Proof.LibRowBroadcastInDim
import proofs.«129375_j25383256719506_1_alg».proof.Proof.LibReshapeBroadcast

noncomputable section

namespace Cert.Lib.CombineLayer

open Idealize.ShloMosaic Idealize.ShloMosaic.ValueIdx

/-- The layer: entry (r, c) is (sum_k a(r,k) wa(k,c) + sum_k h(r,k) wh(k,c)) + b(0,c). -/
def affine2 {M K N : ℕ} (a h : FVec Ideal ⟨2, ![M, K]⟩ .f32) (wa wh : FVec Ideal ⟨2, ![K, N]⟩ .f32)
    (b : FVec Ideal ⟨2, ![1, N]⟩ .f32) : FVec Ideal ⟨2, ![M, N]⟩ .f32 :=
  fun i => (∑ k : Fin K, a (ix2 (i 0) k) * wa (ix2 k (i 1)) + ∑ k : Fin K, h (ix2 (i 0) k) * wh (ix2 k (i 1)))
    + b (ix2 (0 : Fin 1) (i 1))

/-- The layer's positive part against the value z. -/
def affine2Pos {M K N : ℕ} (a h : FVec Ideal ⟨2, ![M, K]⟩ .f32) (wa wh : FVec Ideal ⟨2, ![K, N]⟩ .f32)
    (b : FVec Ideal ⟨2, ![1, N]⟩ .f32) (z : Ideal .f32) : FVec Ideal ⟨2, ![M, N]⟩ .f32 :=
  fun i => max (affine2 a h wa wh b i) z

theorem affine2_apply {M K N : ℕ} (a h : FVec Ideal ⟨2, ![M, K]⟩ .f32) (wa wh : FVec Ideal ⟨2, ![K, N]⟩ .f32)
    (b : FVec Ideal ⟨2, ![1, N]⟩ .f32) (p : Fin M) (q : Fin N) :
    affine2 a h wa wh b (ix2 p q)
      = (∑ k : Fin K, a (ix2 p k) * wa (ix2 k q) + ∑ k : Fin K, h (ix2 p k) * wh (ix2 k q)) + b (ix2 (0 : Fin 1) q) := rfl

theorem affine2Pos_apply {M K N : ℕ} (a h : FVec Ideal ⟨2, ![M, K]⟩ .f32) (wa wh : FVec Ideal ⟨2, ![K, N]⟩ .f32)
    (b : FVec Ideal ⟨2, ![1, N]⟩ .f32) (z : Ideal .f32) (p : Fin M) (q : Fin N) :
    affine2Pos a h wa wh b z (ix2 p q) = max (affine2 a h wa wh b (ix2 p q)) z := rfl

/-- A block of rows of the layer is the layer of the blocks of rows: if row p of the blocks x0, x1 is row (row p) of a, h,
    and the weights and bias agree, the block's entry (p, q) is the whole layer's entry (row p, q). -/
theorem affine2_rows {B M K N : ℕ} (x0 x1 : FVec Ideal ⟨2, ![B, K]⟩ .f32) (x2 x3 : FVec Ideal ⟨2, ![K, N]⟩ .f32)
    (x4 : FVec Ideal ⟨2, ![1, N]⟩ .f32) (a h : FVec Ideal ⟨2, ![M, K]⟩ .f32) (wa wh : FVec Ideal ⟨2, ![K, N]⟩ .f32)
    (b : FVec Ideal ⟨2, ![1, N]⟩ .f32) (row : Fin B → Fin M)
    (h0 : ∀ p k, x0 (ix2 p k) = a (ix2 (row p) k)) (h1 : ∀ p k, x1 (ix2 p k) = h (ix2 (row p) k))
    (h2 : ∀ k q, x2 (ix2 k q) = wa (ix2 k q)) (h3 : ∀ k q, x3 (ix2 k q) = wh (ix2 k q))
    (h4 : ∀ q, x4 (ix2 (0 : Fin 1) q) = b (ix2 (0 : Fin 1) q)) (p : Fin B) (q : Fin N) :
    affine2 x0 x1 x2 x3 x4 (ix2 p q) = affine2 a h wa wh b (ix2 (row p) q) := by
  rw [affine2_apply, affine2_apply, h4]
  refine congrArg (· + b (ix2 (0 : Fin 1) q)) ?_
  refine congrArg₂ (· + ·) (Finset.sum_congr rfl fun k _ => ?_) (Finset.sum_congr rfl fun k _ => ?_)
  · rw [h0, h2]
  · rw [h1, h3]

/-- The matrix unit's spelling on a block of rows, at entry (p, q), is the layer of the blocks. -/
theorem kernel_apply {B K N : ℕ} {ψ : FTy} (hψ : ψ.bits < FTy.bits .f32)
    (x0 x1 : FVec Ideal ⟨2, ![B, K]⟩ .f32) (x2 x3 : FVec Ideal ⟨2, ![K, N]⟩ .f32) (x4 : FVec Ideal ⟨2, ![1, N]⟩ .f32)
    (hb : (⟨2, ![1, N]⟩ : Shape).Broadcasts ⟨2, ![B, N]⟩) (p : Fin B) (q : Fin N) :
    addf (addf (FloatOps.matmul (DotDims.plain B K N) none (truncf ψ x0 hψ) (truncf ψ x2 hψ)
                  (constant ⟨2, ![B, N]⟩ .f32 0x00000000#32))
               (FloatOps.matmul (DotDims.plain B K N) none (truncf ψ x1 hψ) (truncf ψ x3 hψ)
                  (constant ⟨2, ![B, N]⟩ .f32 0x00000000#32)))
         (broadcastTo ⟨2, ![B, N]⟩ x4 hb) (ix2 p q)
      = affine2 x0 x1 x2 x3 x4 (ix2 p q) := by
  rw [addf_apply, addf_apply, Cert.Lib.PlainDot.matmul_zero_apply, Cert.Lib.PlainDot.matmul_zero_apply,
    broadcastTo_1b_ab_apply, affine2_apply]
  rfl

/-- The same followed by the maximum against a splat value. -/
theorem kernel_pos_apply {B K N : ℕ} {ψ : FTy} (hψ : ψ.bits < FTy.bits .f32)
    (x0 x1 : FVec Ideal ⟨2, ![B, K]⟩ .f32) (x2 x3 : FVec Ideal ⟨2, ![K, N]⟩ .f32) (x4 : FVec Ideal ⟨2, ![1, N]⟩ .f32)
    (hb : (⟨2, ![1, N]⟩ : Shape).Broadcasts ⟨2, ![B, N]⟩) (z : Ideal .f32) (p : Fin B) (q : Fin N) :
    maximumf (addf (addf (FloatOps.matmul (DotDims.plain B K N) none (truncf ψ x0 hψ) (truncf ψ x2 hψ)
                  (constant ⟨2, ![B, N]⟩ .f32 0x00000000#32))
               (FloatOps.matmul (DotDims.plain B K N) none (truncf ψ x1 hψ) (truncf ψ x3 hψ)
                  (constant ⟨2, ![B, N]⟩ .f32 0x00000000#32)))
         (broadcastTo ⟨2, ![B, N]⟩ x4 hb)) (broadcast ⟨2, ![B, N]⟩ z) (ix2 p q)
      = affine2Pos x0 x1 x2 x3 x4 z (ix2 p q) := by
  rw [maximumf_apply, kernel_apply, broadcast_apply, affine2Pos_apply]

/-- The host's spelling, (a.wa + b) + h.wh with the bias a vector spread to a row and then down the rows, is the layer
    with the vector laid out as a row: only commutativity and associativity of addition are used. -/
theorem host_eq {M K N : ℕ} (a h : FVec Ideal ⟨2, ![M, K]⟩ .f32) (wa wh : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hs : (⟨1, ![N]⟩ : Shape).ShapeCasts ⟨2, ![1, N]⟩) :
    addf (addf (Host.dotGeneral (F := Ideal) (DotDims.plain M K N) none a wa)
               (broadcastInDim ⟨2, ![M, N]⟩ ![0, 1] h2 (broadcastInDim ⟨2, ![1, N]⟩ ![1] h1 b)))
         (Host.dotGeneral (F := Ideal) (DotDims.plain M K N) none h wh)
      = affine2 a h wa wh (shapeCast ⟨2, ![1, N]⟩ b hs) := by
  funext i
  obtain ⟨p, q, rfl⟩ : ∃ (p : Fin M) (q : Fin N), i = ix2 p q := ⟨i 0, i 1, eq_ix2 i⟩
  rw [addf_apply, addf_apply, affine2_apply, Cert.Lib.PadReads.reshape_row_apply,
    Cert.Lib.RowBroadcastInDim.row_broadcast_apply, Cert.Lib.ReshapeBroadcast.row_of_vector_apply]
  refine ((congrArg₂ (· + ·) (congrArg (· + b (ix1 q))
      (Cert.Lib.PlainDot.dotGeneral_apply M K N none .single a wa (ix2 p q)))
      (Cert.Lib.PlainDot.dotGeneral_apply M K N none .single h wh (ix2 p q))).trans ?_)
  exact add_right_comm _ _ _

/-- The host's spelling followed by the maximum against a scalar constant spread over the array. -/
theorem host_pos_eq {M K N : ℕ} (a h : FVec Ideal ⟨2, ![M, K]⟩ .f32) (wa wh : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hs : (⟨1, ![N]⟩ : Shape).ShapeCasts ⟨2, ![1, N]⟩)
    (h0 : (⟨0, ![]⟩ : Shape).BroadcastsInDim ⟨2, ![M, N]⟩ ![]) (w : BitVec (FTy.bits .f32)) :
    maximumf (addf (addf (Host.dotGeneral (F := Ideal) (DotDims.plain M K N) none a wa)
               (broadcastInDim ⟨2, ![M, N]⟩ ![0, 1] h2 (broadcastInDim ⟨2, ![1, N]⟩ ![1] h1 b)))
         (Host.dotGeneral (F := Ideal) (DotDims.plain M K N) none h wh))
        (broadcastInDim ⟨2, ![M, N]⟩ ![] h0 (constant (F := Ideal) ⟨0, ![]⟩ .f32 w))
      = affine2Pos a h wa wh (shapeCast ⟨2, ![1, N]⟩ b hs) (Ideal.ofBits .f32 w) := by
  rw [host_eq a h wa wh b h1 h2 hs]
  funext i
  rw [maximumf_apply, Cert.Lib.ReshapeBroadcast.splat_apply]
  rfl

end Cert.Lib.CombineLayer

end
-- ==== Proof.KernelLayer0.lean ====
/-
  Region 0 of the kernel's program (layer 1): what the region leaves in its output array.

  The region walks the 50000 rows in 10 blocks of 5000. At each block the body reads the block's rows of the
  aggregated features and of the node features (both [5000, 128]), the two whole weight matrices ([128, 64]) and the whole
  bias row ([1, 64]), and stores the positive part of (agg.Wrel + x.Wroot) + bias for those rows. A row of this layer depends only
  on the same row of the two feature arrays, so block t of the output is block t of the layer of the WHOLE arrays, and
  the ten blocks cover the output: the array ends holding the layer of the arrays the region was entered with.
-/
import proofs.«129375_j25383256719506_1_alg».proof.Proof.Gen.KernelIdeal.Frame
import proofs.«129375_j25383256719506_1_alg».proof.Proof.LibCombineLayer
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.Lib.CombineLayer

/-- The layer this region computes, as one function of the five whole arrays it reads. -/
abbrev G (A H : FVec Ideal S50000x128 .f32) (Wa Wh : FVec Ideal S128x64 .f32) (b : FVec Ideal S1x64 .f32) :
    FVec Ideal S50000x64 .f32 := affine2Pos A H Wa Wh b (Ideal.ofBits .f32 0x00000000#32)

theorem hz : (![0, 0] : Fin 2 → Nat) = fun _ => 0 := funext fun a => by fin_cases a <;> rfl

/-- The body's stored value at entry (p, q) of a block is the layer of the loaded blocks there. -/
theorem pay_apply (x0 x1 : FVec Ideal S5000x128 .f32) (x2 x3 : FVec Ideal S128x64 .f32) (x4 : FVec Ideal S1x64 .f32)
    (p : Fin 5000) (q : Fin 64) :
    k0_pay1 (F := Ideal) x0 x1 x2 x3 x4 (ix2 p q)
      = (affine2Pos x0 x1 x2 x3 x4 (Ideal.ofBits .f32 0x00000000#32) : FVec Ideal S5000x64 .f32) (ix2 p q) := by
  unfold k0_pay1
  simp only [shapeCast_self]
  exact kernel_pos_apply bitsLt_bf16_f32 x0 x1 x2 x3 x4 broadcasts_S1x64_S5000x64 _ p q

/-- Block r of the layer of loaded blocks is block r of the layer of the whole arrays, when the two feature blocks
    are rows 5000 r … 5000 r + 4999 of the feature arrays and the weights and bias are read whole. -/
theorem block_eq (x0 x1 : FVec Ideal S5000x128 .f32) (x2 x3 : FVec Ideal S128x64 .f32) (x4 : FVec Ideal S1x64 .f32)
    (A H : FVec Ideal S50000x128 .f32) (Wa Wh : FVec Ideal S128x64 .f32) (b : FVec Ideal S1x64 .f32) (r : ℕ)
    (h0 : ∀ (y : S5000x128.Idx) (i : S50000x128.Idx), (i 0).val = r * 5000 + (y 0).val → (i 1).val = (y 1).val → x0 y = A i)
    (h1 : ∀ (y : S5000x128.Idx) (i : S50000x128.Idx), (i 0).val = r * 5000 + (y 0).val → (i 1).val = (y 1).val → x1 y = H i)
    (h2 : ∀ y : S128x64.Idx, x2 y = Wa y) (h3 : ∀ y : S128x64.Idx, x3 y = Wh y) (h4 : ∀ y : S1x64.Idx, x4 y = b y)
    (j : S5000x64.Idx) (i : S50000x64.Idx) (hi0 : (i 0).val = r * 5000 + (j 0).val) (hi1 : (i 1).val = (j 1).val) :
    k0_pay1 (F := Ideal) x0 x1 x2 x3 x4 j = G A H Wa Wh b i := by
  obtain ⟨p, q, rfl⟩ : ∃ (p : Fin 5000) (q : Fin 64), j = ix2 p q := ⟨j 0, j 1, eq_ix2 j⟩
  obtain ⟨pm, qm, rfl⟩ : ∃ (pm : Fin 50000) (qm : Fin 64), i = ix2 pm qm := ⟨i 0, i 1, eq_ix2 i⟩
  have hpm : pm.val = r * 5000 + p.val := hi0
  obtain rfl : q = qm := (Fin.ext hi1).symm
  refine (pay_apply x0 x1 x2 x3 x4 p q).trans ?_
  show max (affine2 x0 x1 x2 x3 x4 (ix2 p q)) _ = max (affine2 A H Wa Wh b (ix2 pm q)) _
  refine congrArg (max · _) ?_
  rw [affine2_apply, affine2_apply, h4]
  refine congrArg (· + b (ix2 (0 : Fin 1) q)) ?_
  refine congrArg₂ (· + ·) (Finset.sum_congr rfl fun kk _ => ?_) (Finset.sum_congr rfl fun kk _ => ?_)
  · rw [h0 (ix2 p kk) (ix2 pm kk) hpm rfl, h2]
  · rw [h1 (ix2 p kk) (ix2 pm kk) hpm rfl, h3]

variable (V : (c : Dev nD) → (b : Ref sig .tc) → Buf (Elt Ideal) ((c : Thread nD τ).loc b))

/-- The printed block-index maps, decided once over the grid: the two feature windows and the output window are at
    block row t of point t, column block 0; the weights and the bias row are always block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of the layer of the arrays as the region finds them. -/
theorem flushed_eq (c : Dev nD) (t : Fin cfg0.N) :
    (dat0 V c).flushed 5 t = ((cfg0.win 5).blk t).view.read (Elt Ideal)
      (G (V c main_v13) (V c main_arg0) (V c main_arg3) (V c main_arg4) (V c main_v14)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 3 t) (iblk0 V c 4 t) j
    = G (V c main_v13) (V c main_arg0) (V c main_arg3) (V c main_arg4) (V c main_v14) (((cfg0.win 5).blk t).view.emb j)
  refine block_eq _ _ _ _ _ _ _ _ _ _ t.val ?_ ?_ ?_ ?_ ?_ j _ ?_ ?_
  · intro y i hi0 hi1
    show V c main_v13 (((cfg0.win 0).blk t).view.emb y) = V c main_v13 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y i hi0 hi1
    show V c main_arg0 (((cfg0.win 1).blk t).view.emb y) = V c main_arg0 i
    refine congrArg _ (funext fun a => Fin.ext ?_)
    match a with
    | ⟨0, _⟩ => show win0_1.index t (0 : Fin 2) * 5000 + 1 * (y 0).val = (i 0).val; omega
    | ⟨1, _⟩ => show win0_1.index t (1 : Fin 2) * 128 + 1 * (y 1).val = (i 1).val; omega
  · intro y
    show V c main_arg3 (((cfg0.win 2).blk t).view.emb y) = V c main_arg3 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 64 + 1 * (y 1).val = (y 1).val; omega
  · intro y
    show V c main_arg4 (((cfg0.win 3).blk t).view.emb y) = V c main_arg4 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 64 + 1 * (y 1).val = (y 1).val; omega
  · intro y
    show V c main_v14 (((cfg0.win 4).blk t).view.emb y) = V c main_v14 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · show win0_5.index t (0 : Fin 2) * 5000 + 1 * (j 0).val = t.val * 5000 + (j 0).val; omega
  · show win0_5.index t (1 : Fin 2) * 64 + 1 * (j 1).val = (j 1).val; omega

/-- An index of the output array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v15).slice (win0_5.rect t)).set ↔ _
  rw [View.set_slice_whole, Rect.mem_set_unit]
  exact Iff.rfl

/-- Every index of the output array is in the block of the point its row falls in: row / 5000. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31, e40, e41, e50, e51⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- THE OUTPUT ARRAY after the region: the layer of the arrays the region was entered with. -/
theorem final (c : Dev nD) :
    (dat0 V c).arrAt 5 cfg0.N
      = G (V c main_v13) (V c main_arg0) (V c main_arg3) (V c main_arg4) (V c main_v14) :=
  (dat0 V c).arrAt_eq_of_cover 5 _ (fun t _ => flushed_eq V c t) cover

end Cert.KernelIdeal.Layer0

end
-- ==== Proof.KernelLayer1.lean ====
/-
  Region 1 of the kernel's program (layer 2): what the region leaves in its output array.

  The region walks the 50000 rows in 10 blocks of 5000. At each block the body reads the block's rows of the
  aggregated features and of the node features (both [5000, 64]), the two whole weight matrices ([64, 128]) and the whole
  bias row ([1, 128]), and stores the positive part of (agg.Wrel + x.Wroot) + bias for those rows. A row of this layer depends only
  on the same row of the two feature arrays, so block t of the output is block t of the layer of the WHOLE arrays, and
  the ten blocks cover the output: the array ends holding the layer of the arrays the region was entered with.
-/
import proofs.«129375_j25383256719506_1_alg».proof.Proof.Gen.KernelIdeal.Frame
import proofs.«129375_j25383256719506_1_alg».proof.Proof.LibCombineLayer
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Lib.CombineLayer

/-- The layer this region computes, as one function of the five whole arrays it reads. -/
abbrev G (A H : FVec Ideal S50000x64 .f32) (Wa Wh : FVec Ideal S64x128 .f32) (b : FVec Ideal S1x128 .f32) :
    FVec Ideal S50000x128 .f32 := affine2Pos A H Wa Wh b (Ideal.ofBits .f32 0x00000000#32)

theorem hz : (![0, 0] : Fin 2 → Nat) = fun _ => 0 := funext fun a => by fin_cases a <;> rfl

/-- The body's stored value at entry (p, q) of a block is the layer of the loaded blocks there. -/
theorem pay_apply (x0 x1 : FVec Ideal S5000x64 .f32) (x2 x3 : FVec Ideal S64x128 .f32) (x4 : FVec Ideal S1x128 .f32)
    (p : Fin 5000) (q : Fin 128) :
    k1_pay1 (F := Ideal) x0 x1 x2 x3 x4 (ix2 p q)
      = (affine2Pos x0 x1 x2 x3 x4 (Ideal.ofBits .f32 0x00000000#32) : FVec Ideal S5000x128 .f32) (ix2 p q) := by
  unfold k1_pay1
  simp only [shapeCast_self]
  exact kernel_pos_apply bitsLt_bf16_f32 x0 x1 x2 x3 x4 broadcasts_S1x128_S5000x128 _ p q

/-- Block r of the layer of loaded blocks is block r of the layer of the whole arrays, when the two feature blocks
    are rows 5000 r … 5000 r + 4999 of the feature arrays and the weights and bias are read whole. -/
theorem block_eq (x0 x1 : FVec Ideal S5000x64 .f32) (x2 x3 : FVec Ideal S64x128 .f32) (x4 : FVec Ideal S1x128 .f32)
    (A H : FVec Ideal S50000x64 .f32) (Wa Wh : FVec Ideal S64x128 .f32) (b : FVec Ideal S1x128 .f32) (r : ℕ)
    (h0 : ∀ (y : S5000x64.Idx) (i : S50000x64.Idx), (i 0).val = r * 5000 + (y 0).val → (i 1).val = (y 1).val → x0 y = A i)
    (h1 : ∀ (y : S5000x64.Idx) (i : S50000x64.Idx), (i 0).val = r * 5000 + (y 0).val → (i 1).val = (y 1).val → x1 y = H i)
    (h2 : ∀ y : S64x128.Idx, x2 y = Wa y) (h3 : ∀ y : S64x128.Idx, x3 y = Wh y) (h4 : ∀ y : S1x128.Idx, x4 y = b y)
    (j : S5000x128.Idx) (i : S50000x128.Idx) (hi0 : (i 0).val = r * 5000 + (j 0).val) (hi1 : (i 1).val = (j 1).val) :
    k1_pay1 (F := Ideal) x0 x1 x2 x3 x4 j = G A H Wa Wh b i := by
  obtain ⟨p, q, rfl⟩ : ∃ (p : Fin 5000) (q : Fin 128), j = ix2 p q := ⟨j 0, j 1, eq_ix2 j⟩
  obtain ⟨pm, qm, rfl⟩ : ∃ (pm : Fin 50000) (qm : Fin 128), i = ix2 pm qm := ⟨i 0, i 1, eq_ix2 i⟩
  have hpm : pm.val = r * 5000 + p.val := hi0
  obtain rfl : q = qm := (Fin.ext hi1).symm
  refine (pay_apply x0 x1 x2 x3 x4 p q).trans ?_
  show max (affine2 x0 x1 x2 x3 x4 (ix2 p q)) _ = max (affine2 A H Wa Wh b (ix2 pm q)) _
  refine congrArg (max · _) ?_
  rw [affine2_apply, affine2_apply, h4]
  refine congrArg (· + b (ix2 (0 : Fin 1) q)) ?_
  refine congrArg₂ (· + ·) (Finset.sum_congr rfl fun kk _ => ?_) (Finset.sum_congr rfl fun kk _ => ?_)
  · rw [h0 (ix2 p kk) (ix2 pm kk) hpm rfl, h2]
  · rw [h1 (ix2 p kk) (ix2 pm kk) hpm rfl, h3]

variable (V : (c : Dev nD) → (b : Ref sig .tc) → Buf (Elt Ideal) ((c : Thread nD τ).loc b))

/-- The printed block-index maps, decided once over the grid: the two feature windows and the output window are at
    block row t of point t, column block 0; the weights and the bias row are always block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of the layer of the arrays as the region finds them. -/
theorem flushed_eq (c : Dev nD) (t : Fin cfg1.N) :
    (dat1 V c).flushed 5 t = ((cfg1.win 5).blk t).view.read (Elt Ideal)
      (G (V c main_v25) (V c main_v15) (V c main_arg6) (V c main_arg7) (V c main_v26)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
    = G (V c main_v25) (V c main_v15) (V c main_arg6) (V c main_arg7) (V c main_v26) (((cfg1.win 5).blk t).view.emb j)
  refine block_eq _ _ _ _ _ _ _ _ _ _ t.val ?_ ?_ ?_ ?_ ?_ j _ ?_ ?_
  · intro y i hi0 hi1
    show V c main_v25 (((cfg1.win 0).blk t).view.emb y) = V c main_v25 i
    refine congrArg _ (funext fun a => Fin.ext ?_)
    match a with
    | ⟨0, _⟩ => show win1_0.index t (0 : Fin 2) * 5000 + 1 * (y 0).val = (i 0).val; omega
    | ⟨1, _⟩ => show win1_0.index t (1 : Fin 2) * 64 + 1 * (y 1).val = (i 1).val; omega
  · intro y i hi0 hi1
    show V c main_v15 (((cfg1.win 1).blk t).view.emb y) = V c main_v15 i
    refine congrArg _ (funext fun a => Fin.ext ?_)
    match a with
    | ⟨0, _⟩ => show win1_1.index t (0 : Fin 2) * 5000 + 1 * (y 0).val = (i 0).val; omega
    | ⟨1, _⟩ => show win1_1.index t (1 : Fin 2) * 64 + 1 * (y 1).val = (i 1).val; omega
  · intro y
    show V c main_arg6 (((cfg1.win 2).blk t).view.emb y) = V c main_arg6 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 128 + 1 * (y 1).val = (y 1).val; omega
  · intro y
    show V c main_arg7 (((cfg1.win 3).blk t).view.emb y) = V c main_arg7 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 128 + 1 * (y 1).val = (y 1).val; omega
  · intro y
    show V c main_v26 (((cfg1.win 4).blk t).view.emb y) = V c main_v26 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show win1_5.index t (0 : Fin 2) * 5000 + 1 * (j 0).val = t.val * 5000 + (j 0).val; omega
  · show win1_5.index t (1 : Fin 2) * 128 + 1 * (j 1).val = (j 1).val; omega

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v27).slice (win1_5.rect t)).set ↔ _
  rw [View.set_slice_whole, Rect.mem_set_unit]
  exact Iff.rfl

/-- Every index of the output array is in the block of the point its row falls in: row / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- THE OUTPUT ARRAY after the region: the layer of the arrays the region was entered with. -/
theorem final (c : Dev nD) :
    (dat1 V c).arrAt 5 cfg1.N
      = G (V c main_v25) (V c main_v15) (V c main_arg6) (V c main_arg7) (V c main_v26) :=
  (dat1 V c).arrAt_eq_of_cover 5 _ (fun t _ => flushed_eq V c t) cover

end Cert.KernelIdeal.Layer1

end
-- ==== Proof.KernelLayer2.lean ====
/-
  Region 2 of the kernel's program (layer 3): what the region leaves in its output array.

  The region walks the 50000 rows in 10 blocks of 5000. At each block the body reads the block's rows of the
  aggregated features and of the node features (both [5000, 128]), the two whole weight matrices ([128, 192]) and the whole
  bias row ([1, 192]), and stores the positive part of (agg.Wrel + x.Wroot) + bias for those rows. A row of this layer depends only
  on the same row of the two feature arrays, so block t of the output is block t of the layer of the WHOLE arrays, and
  the ten blocks cover the output: the array ends holding the layer of the arrays the region was entered with.
-/
import proofs.«129375_j25383256719506_1_alg».proof.Proof.Gen.KernelIdeal.Frame
import proofs.«129375_j25383256719506_1_alg».proof.Proof.LibCombineLayer
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Lib.CombineLayer

/-- The layer this region computes, as one function of the five whole arrays it reads. -/
abbrev G (A H : FVec Ideal S50000x128 .f32) (Wa Wh : FVec Ideal S128x192 .f32) (b : FVec Ideal S1x192 .f32) :
    FVec Ideal S50000x192 .f32 := affine2Pos A H Wa Wh b (Ideal.ofBits .f32 0x00000000#32)

theorem hz : (![0, 0] : Fin 2 → Nat) = fun _ => 0 := funext fun a => by fin_cases a <;> rfl

/-- The body's stored value at entry (p, q) of a block is the layer of the loaded blocks there. -/
theorem pay_apply (x0 x1 : FVec Ideal S5000x128 .f32) (x2 x3 : FVec Ideal S128x192 .f32) (x4 : FVec Ideal S1x192 .f32)
    (p : Fin 5000) (q : Fin 192) :
    k2_pay1 (F := Ideal) x0 x1 x2 x3 x4 (ix2 p q)
      = (affine2Pos x0 x1 x2 x3 x4 (Ideal.ofBits .f32 0x00000000#32) : FVec Ideal S5000x192 .f32) (ix2 p q) := by
  unfold k2_pay1
  simp only [shapeCast_self]
  exact kernel_pos_apply bitsLt_bf16_f32 x0 x1 x2 x3 x4 broadcasts_S1x192_S5000x192 _ p q

/-- Block r of the layer of loaded blocks is block r of the layer of the whole arrays, when the two feature blocks
    are rows 5000 r … 5000 r + 4999 of the feature arrays and the weights and bias are read whole. -/
theorem block_eq (x0 x1 : FVec Ideal S5000x128 .f32) (x2 x3 : FVec Ideal S128x192 .f32) (x4 : FVec Ideal S1x192 .f32)
    (A H : FVec Ideal S50000x128 .f32) (Wa Wh : FVec Ideal S128x192 .f32) (b : FVec Ideal S1x192 .f32) (r : ℕ)
    (h0 : ∀ (y : S5000x128.Idx) (i : S50000x128.Idx), (i 0).val = r * 5000 + (y 0).val → (i 1).val = (y 1).val → x0 y = A i)
    (h1 : ∀ (y : S5000x128.Idx) (i : S50000x128.Idx), (i 0).val = r * 5000 + (y 0).val → (i 1).val = (y 1).val → x1 y = H i)
    (h2 : ∀ y : S128x192.Idx, x2 y = Wa y) (h3 : ∀ y : S128x192.Idx, x3 y = Wh y) (h4 : ∀ y : S1x192.Idx, x4 y = b y)
    (j : S5000x192.Idx) (i : S50000x192.Idx) (hi0 : (i 0).val = r * 5000 + (j 0).val) (hi1 : (i 1).val = (j 1).val) :
    k2_pay1 (F := Ideal) x0 x1 x2 x3 x4 j = G A H Wa Wh b i := by
  obtain ⟨p, q, rfl⟩ : ∃ (p : Fin 5000) (q : Fin 192), j = ix2 p q := ⟨j 0, j 1, eq_ix2 j⟩
  obtain ⟨pm, qm, rfl⟩ : ∃ (pm : Fin 50000) (qm : Fin 192), i = ix2 pm qm := ⟨i 0, i 1, eq_ix2 i⟩
  have hpm : pm.val = r * 5000 + p.val := hi0
  obtain rfl : q = qm := (Fin.ext hi1).symm
  refine (pay_apply x0 x1 x2 x3 x4 p q).trans ?_
  show max (affine2 x0 x1 x2 x3 x4 (ix2 p q)) _ = max (affine2 A H Wa Wh b (ix2 pm q)) _
  refine congrArg (max · _) ?_
  rw [affine2_apply, affine2_apply, h4]
  refine congrArg (· + b (ix2 (0 : Fin 1) q)) ?_
  refine congrArg₂ (· + ·) (Finset.sum_congr rfl fun kk _ => ?_) (Finset.sum_congr rfl fun kk _ => ?_)
  · rw [h0 (ix2 p kk) (ix2 pm kk) hpm rfl, h2]
  · rw [h1 (ix2 p kk) (ix2 pm kk) hpm rfl, h3]

variable (V : (c : Dev nD) → (b : Ref sig .tc) → Buf (Elt Ideal) ((c : Thread nD τ).loc b))

/-- The printed block-index maps, decided once over the grid: the two feature windows and the output window are at
    block row t of point t, column block 0; the weights and the bias row are always block (0, 0). -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT t WRITES BACK is block t of the layer of the arrays as the region finds them. -/
theorem flushed_eq (c : Dev nD) (t : Fin cfg2.N) :
    (dat2 V c).flushed 5 t = ((cfg2.win 5).blk t).view.read (Elt Ideal)
      (G (V c main_v37) (V c main_v27) (V c main_arg9) (V c main_arg10) (V c main_v38)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x192) hz, View.ld_unit_zero (S := S1x192) hz]
  obtain ⟨e00, e01, e10, e11, e20, e21, e30, e31, e40, e41, e50, e51⟩ := idx_facts t
  funext j
  show k2_pay1 (F := Ideal) (iblk2 V c 0 t) (iblk2 V c 1 t) (iblk2 V c 2 t) (iblk2 V c 3 t) (iblk2 V c 4 t) j
    = G (V c main_v37) (V c main_v27) (V c main_arg9) (V c main_arg10) (V c main_v38) (((cfg2.win 5).blk t).view.emb j)
  refine block_eq _ _ _ _ _ _ _ _ _ _ t.val ?_ ?_ ?_ ?_ ?_ j _ ?_ ?_
  · intro y i hi0 hi1
    show V c main_v37 (((cfg2.win 0).blk t).view.emb y) = V c main_v37 i
    refine congrArg _ (funext fun a => Fin.ext ?_)
    match a with
    | ⟨0, _⟩ => show win2_0.index t (0 : Fin 2) * 5000 + 1 * (y 0).val = (i 0).val; omega
    | ⟨1, _⟩ => show win2_0.index t (1 : Fin 2) * 128 + 1 * (y 1).val = (i 1).val; omega
  · intro y i hi0 hi1
    show V c main_v27 (((cfg2.win 1).blk t).view.emb y) = V c main_v27 i
    refine congrArg _ (funext fun a => Fin.ext ?_)
    match a with
    | ⟨0, _⟩ => show win2_1.index t (0 : Fin 2) * 5000 + 1 * (y 0).val = (i 0).val; omega
    | ⟨1, _⟩ => show win2_1.index t (1 : Fin 2) * 128 + 1 * (y 1).val = (i 1).val; omega
  · intro y
    show V c main_arg9 (((cfg2.win 2).blk t).view.emb y) = V c main_arg9 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 192 + 1 * (y 1).val = (y 1).val; omega
  · intro y
    show V c main_arg10 (((cfg2.win 3).blk t).view.emb y) = V c main_arg10 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 192 + 1 * (y 1).val = (y 1).val; omega
  · intro y
    show V c main_v38 (((cfg2.win 4).blk t).view.emb y) = V c main_v38 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 192 + 1 * (y 1).val = (y 1).val; omega
  · show win2_5.index t (0 : Fin 2) * 5000 + 1 * (j 0).val = t.val * 5000 + (j 0).val; omega
  · show win2_5.index t (1 : Fin 2) * 192 + 1 * (j 1).val = (j 1).val; omega

/-- An index of the output array is in point t's block iff each coordinate is in the block's range on its axis. -/
theorem mem_blk (t : Fin cfg2.N) (i : S50000x192.Idx) :
    i ∈ ((cfg2.win 5).blk t).view.set ↔ ∀ a : Fin 2, win2_5.index t a * S5000x192.size a ≤ (i a).val
      ∧ (i a).val < win2_5.index t a * S5000x192.size a + S5000x192.size a := by
  show i ∈ ((View.whole main_v39).slice (win2_5.rect t)).set ↔ _
  rw [View.set_slice_whole, Rect.mem_set_unit]
  exact Iff.rfl

/-- Every index of the output array is in the block of the point its row falls in: row / 5000. -/
theorem cover (i : S50000x192.Idx) :
    ∃ t : Fin cfg2.N, (cfg2.win 5).flush t = true ∧ i ∈ ((cfg2.win 5).blk t).view.set := by
  have hi0 : (i 0).val < 50000 := (i 0).isLt
  have hi1 : (i 1).val < 192 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e00, e01, e10, e11, e20, e21, e30, e31, e40, e41, e50, e51⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 192 ≤ (i 1).val ∧ (i 1).val < win2_5.index t (1 : Fin 2) * 192 + 192
    omega

/-- THE OUTPUT ARRAY after the region: the layer of the arrays the region was entered with. -/
theorem final (c : Dev nD) :
    (dat2 V c).arrAt 5 cfg2.N
      = G (V c main_v37) (V c main_v27) (V c main_arg9) (V c main_arg10) (V c main_v38) :=
  (dat2 V c).arrAt_eq_of_cover 5 _ (fun t _ => flushed_eq V c t) cover

end Cert.KernelIdeal.Layer2

end
-- ==== Proof.KernelLayer3.lean ====
/-
  Region 3 of the kernel's program (layer 4): what the region leaves in its output array.

  The region walks the 50000 rows in 10 blocks of 5000. At each block the body reads the block's rows of the
  aggregated features and of the node features (both [5000, 192]), the two whole weight matrices ([192, 64]) and the whole
  bias row ([1, 64]), and stores (agg.Wrel + x.Wroot) + bias for those rows. A row of this layer depends only
  on the same row of the two feature arrays, so block t of the output is block t of the layer of the WHOLE arrays, and
  the ten blocks cover the output: the array ends holding the layer of the arrays the region was entered with.
-/
import proofs.«129375_j25383256719506_1_alg».proof.Proof.Gen.KernelIdeal.Frame
import proofs.«129375_j25383256719506_1_alg».proof.Proof.LibCombineLayer
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen Cert.Lib.CombineLayer

/-- The layer this region computes, as one function of the five whole arrays it reads. -/
abbrev G (A H : FVec Ideal S50000x192 .f32) (Wa Wh : FVec Ideal S192x64 .f32) (b : FVec Ideal S1x64 .f32) :
    FVec Ideal S50000x64 .f32 := affine2 A H Wa Wh b

theorem hz : (![0, 0] : Fin 2 → Nat) = fun _ => 0 := funext fun a => by fin_cases a <;> rfl

/-- The body's stored value at entry (p, q) of a block is the layer of the loaded blocks there. -/
theorem pay_apply (x0 x1 : FVec Ideal S5000x192 .f32) (x2 x3 : FVec Ideal S192x64 .f32) (x4 : FVec Ideal S1x64 .f32)
    (p : Fin 5000) (q : Fin 64) :
    k3_pay1 (F := Ideal) x0 x1 x2 x3 x4 (ix2 p q)
      = (affine2 x0 x1 x2 x3 x4 : FVec Ideal S5000x64 .f32) (ix2 p q) := by
  unfold k3_pay1
  simp only [shapeCast_self]
  exact kernel_apply bitsLt_bf16_f32 x0 x1 x2 x3 x4 broadcasts_S1x64_S5000x64 p q

/-- Block r of the layer of loaded blocks is block r of the layer of the whole arrays, when the two feature blocks
    are rows 5000 r … 5000 r + 4999 of the feature arrays and the weights and bias are read whole. -/
theorem block_eq (x0 x1 : FVec Ideal S5000x192 .f32) (x2 x3 : FVec Ideal S192x64 .f32) (x4 : FVec Ideal S1x64 .f32)
    (A H : FVec Ideal S50000x192 .f32) (Wa Wh : FVec Ideal S192x64 .f32) (b : FVec Ideal S1x64 .f32) (r : ℕ)
    (h0 : ∀ (y : S5000x192.Idx) (i : S50000x192.Idx), (i 0).val = r * 5000 + (y 0).val → (i 1).val = (y 1).val → x0 y = A i)
    (h1 : ∀ (y : S5000x192.Idx) (i : S50000x192.Idx), (i 0).val = r * 5000 + (y 0).val → (i 1).val = (y 1).val → x1 y = H i)
    (h2 : ∀ y : S192x64.Idx, x2 y = Wa y) (h3 : ∀ y : S192x64.Idx, x3 y = Wh y) (h4 : ∀ y : S1x64.Idx, x4 y = b y)
    (j : S5000x64.Idx) (i : S50000x64.Idx) (hi0 : (i 0).val = r * 5000 + (j 0).val) (hi1 : (i 1).val = (j 1).val) :
    k3_pay1 (F := Ideal) x0 x1 x2 x3 x4 j = G A H Wa Wh b i := by
  obtain ⟨p, q, rfl⟩ : ∃ (p : Fin 5000) (q : Fin 64), j = ix2 p q := ⟨j 0, j 1, eq_ix2 j⟩
  obtain ⟨pm, qm, rfl⟩ : ∃ (pm : Fin 50000) (qm : Fin 64), i = ix2 pm qm := ⟨i 0, i 1, eq_ix2 i⟩
  have hpm : pm.val = r * 5000 + p.val := hi0
  obtain rfl : q = qm := (Fin.ext hi1).symm
  refine (pay_apply x0 x1 x2 x3 x4 p q).trans ?_
  show affine2 x0 x1 x2 x3 x4 (ix2 p q) = affine2 A H Wa Wh b (ix2 pm q)
  rw [affine2_apply, affine2_apply, h4]
  refine congrArg (· + b (ix2 (0 : Fin 1) q)) ?_
  refine congrArg₂ (· + ·) (Finset.sum_congr rfl fun kk _ => ?_) (Finset.sum_congr rfl fun kk _ => ?_)
  · rw [h0 (ix2 p kk) (ix2 pm kk) hpm rfl, h2]
  · rw [h1 (ix2 p kk) (ix2 pm kk) hpm rfl, h3]

variable (V : (c : Dev nD) → (b : Ref sig .tc) → Buf (Elt Ideal) ((c : Thread nD τ).loc b))

/-- The printed block-index maps, decided once over the grid: the two feature windows and the output window are at
    block row t of point t, column block 0; the weights and the bias row are always block (0, 0). -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- WHAT POINT t WRITES BACK is block t of the layer of the arrays as the region finds them. -/
theorem flushed_eq (c : Dev nD) (t : Fin cfg3.N) :
    (dat3 V c).flushed 5 t = ((cfg3.win 5).blk t).view.read (Elt Ideal)
      (G (V c main_v49) (V c main_v39) (V c main_arg12) (V c main_arg13) (V c main_v50)) := by
  show (cfg3.win 5).cut (grid3.coords t) ((dat3 V c).after 5 t) = _
  rw [after3_5]
  unfold out3_5
  rw [View.canon_unit_zero hz]
  simp only [View.ld_unit_zero (S := S5000x192) hz, View.ld_unit_zero (S := S192x64) hz, View.ld_unit_zero (S := S1x64) hz]
  obtain ⟨e00, e01, e10, e11, e20, e21, e30, e31, e40, e41, e50, e51⟩ := idx_facts t
  funext j
  show k3_pay1 (F := Ideal) (iblk3 V c 0 t) (iblk3 V c 1 t) (iblk3 V c 2 t) (iblk3 V c 3 t) (iblk3 V c 4 t) j
    = G (V c main_v49) (V c main_v39) (V c main_arg12) (V c main_arg13) (V c main_v50) (((cfg3.win 5).blk t).view.emb j)
  refine block_eq _ _ _ _ _ _ _ _ _ _ t.val ?_ ?_ ?_ ?_ ?_ j _ ?_ ?_
  · intro y i hi0 hi1
    show V c main_v49 (((cfg3.win 0).blk t).view.emb y) = V c main_v49 i
    refine congrArg _ (funext fun a => Fin.ext ?_)
    match a with
    | ⟨0, _⟩ => show win3_0.index t (0 : Fin 2) * 5000 + 1 * (y 0).val = (i 0).val; omega
    | ⟨1, _⟩ => show win3_0.index t (1 : Fin 2) * 192 + 1 * (y 1).val = (i 1).val; omega
  · intro y i hi0 hi1
    show V c main_v39 (((cfg3.win 1).blk t).view.emb y) = V c main_v39 i
    refine congrArg _ (funext fun a => Fin.ext ?_)
    match a with
    | ⟨0, _⟩ => show win3_1.index t (0 : Fin 2) * 5000 + 1 * (y 0).val = (i 0).val; omega
    | ⟨1, _⟩ => show win3_1.index t (1 : Fin 2) * 192 + 1 * (y 1).val = (i 1).val; omega
  · intro y
    show V c main_arg12 (((cfg3.win 2).blk t).view.emb y) = V c main_arg12 y
    refine congrArg _ (funext fun a => Fin.ext ?_)
    match a with
    | ⟨0, _⟩ => show win3_2.index t (0 : Fin 2) * 192 + 1 * (y 0).val = (y 0).val; omega
    | ⟨1, _⟩ => show win3_2.index t (1 : Fin 2) * 64 + 1 * (y 1).val = (y 1).val; omega
  · intro y
    show V c main_arg13 (((cfg3.win 3).blk t).view.emb y) = V c main_arg13 y
    refine congrArg _ (funext fun a => Fin.ext ?_)
    match a with
    | ⟨0, _⟩ => show win3_3.index t (0 : Fin 2) * 192 + 1 * (y 0).val = (y 0).val; omega
    | ⟨1, _⟩ => show win3_3.index t (1 : Fin 2) * 64 + 1 * (y 1).val = (y 1).val; omega
  · intro y
    show V c main_v50 (((cfg3.win 4).blk t).view.emb y) = V c main_v50 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 64 + 1 * (y 1).val = (y 1).val; omega
  · show win3_5.index t (0 : Fin 2) * 5000 + 1 * (j 0).val = t.val * 5000 + (j 0).val; omega
  · show win3_5.index t (1 : Fin 2) * 64 + 1 * (j 1).val = (j 1).val; omega

/-- An index of the output array is in point t's block iff each coordinate is in the block's range on its axis. -/
theorem mem_blk (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v51).slice (win3_5.rect t)).set ↔ _
  rw [View.set_slice_whole, Rect.mem_set_unit]
  exact Iff.rfl

/-- Every index of the output array is in the block of the point its row falls in: row / 5000. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41, e50, e51⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 64 ≤ (i 1).val ∧ (i 1).val < win3_5.index t (1 : Fin 2) * 64 + 64
    omega

/-- THE OUTPUT ARRAY after the region: the layer of the arrays the region was entered with. -/
theorem final (c : Dev nD) :
    (dat3 V c).arrAt 5 cfg3.N
      = G (V c main_v49) (V c main_v39) (V c main_arg12) (V c main_arg13) (V c main_v50) :=
  (dat3 V c).arrAt_eq_of_cover 5 _ (fun t _ => flushed_eq V c t) cover

end Cert.KernelIdeal.Layer3

end
-- ==== Proof.KernelFold.lean ====
/-
  The kernel's program, boundary by boundary, against the reference's stages.

  Both programs compute four graph-convolution layers, a mean pool over the graphs and a linear head. Around the
  layers they apply the SAME host operations to the same arrays: the two rows of the edge list are sliced out and
  negative sources wrapped once; before each layer the current features are gathered along the sources and
  scatter-added into the destinations (the neighbour sums); after the last layer the rows are scatter-added into their
  graphs, divided by the graph sizes, and multiplied into the head. These operations are never opened here: at every
  boundary the kernel's buffer is shown to hold the reference's stage (a function of the argument arrays) by
  rewriting the operands and closing with the operations' own equality.

  The one place the programs differ is the layer: the reference adds the bias before the second product,
  (agg.Wrel + b) + x.Wroot, the kernel after it, (agg.Wrel + x.Wroot) + b, on blocks of 5000 rows with the operands rounded
  to a narrower format (the identity at the ideal values). Each region's array is the layer of the arrays it was entered
  with, and the two groupings agree on every extended real because addition there is commutative and associative.
-/
import proofs.«129375_j25383256719506_1_alg».proof.Proof.Gen.KernelIdeal.Frame
import proofs.«129375_j25383256719506_1_alg».proof.Proof.Gen.ReferenceIdeal.Read
import proofs.«129375_j25383256719506_1_alg».proof.Proof.KernelLayer0
import proofs.«129375_j25383256719506_1_alg».proof.Proof.KernelLayer1
import proofs.«129375_j25383256719506_1_alg».proof.Proof.KernelLayer2
import proofs.«129375_j25383256719506_1_alg».proof.Proof.KernelLayer3
import proofs.«129375_j25383256719506_1_alg».proof.Proof.LibCombineLayer
import Idealize.ShloMosaic.Lib.StableHlo.Run

noncomputable section

namespace Cert.KernelIdeal.Fold

open Cert.KernelIdeal Cert.KernelIdeal.Gen Cert.Lib.CombineLayer
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays at each boundary: no host operation and no region writes one -/

theorem w1_arg0 : W1 m ρ c (Proc.devRef .tc main_arg0) = (m ((c : Thread nD τ).loc main_arg0)) :=
  (show StableHlo.after hostOps0 (W0 m ρ c) (Proc.devRef .tc main_arg0) = W0 m ρ c (Proc.devRef .tc main_arg0) from by after_results).trans (rfl : W0 m ρ c (Proc.devRef .tc main_arg0) = (m ((c : Thread nD τ).loc main_arg0)))

theorem w1_arg2 : W1 m ρ c (Proc.devRef .tc main_arg2) = (m ((c : Thread nD τ).loc main_arg2)) :=
  (show StableHlo.after hostOps0 (W0 m ρ c) (Proc.devRef .tc main_arg2) = W0 m ρ c (Proc.devRef .tc main_arg2) from by after_results).trans (rfl : W0 m ρ c (Proc.devRef .tc main_arg2) = (m ((c : Thread nD τ).loc main_arg2)))

theorem w2_arg2 : W2 m ρ c (Proc.devRef .tc main_arg2) = (m ((c : Thread nD τ).loc main_arg2)) :=
  (W2_of_ne m ρ c main_arg2 (by decide)).trans (w1_arg2 m ρ c)

theorem w3_arg2 : W3 m ρ c (Proc.devRef .tc main_arg2) = (m ((c : Thread nD τ).loc main_arg2)) :=
  (show StableHlo.after hostOps1 (W2 m ρ c) (Proc.devRef .tc main_arg2) = W2 m ρ c (Proc.devRef .tc main_arg2) from by after_results).trans (w2_arg2 m ρ c)

theorem w4_arg2 : W4 m ρ c (Proc.devRef .tc main_arg2) = (m ((c : Thread nD τ).loc main_arg2)) :=
  (W4_of_ne m ρ c main_arg2 (by decide)).trans (w3_arg2 m ρ c)

theorem w5_arg2 : W5 m ρ c (Proc.devRef .tc main_arg2) = (m ((c : Thread nD τ).loc main_arg2)) :=
  (show StableHlo.after hostOps2 (W4 m ρ c) (Proc.devRef .tc main_arg2) = W4 m ρ c (Proc.devRef .tc main_arg2) from by after_results).trans (w4_arg2 m ρ c)

theorem w6_arg2 : W6 m ρ c (Proc.devRef .tc main_arg2) = (m ((c : Thread nD τ).loc main_arg2)) :=
  (W6_of_ne m ρ c main_arg2 (by decide)).trans (w5_arg2 m ρ c)

theorem w7_arg2 : W7 m ρ c (Proc.devRef .tc main_arg2) = (m ((c : Thread nD τ).loc main_arg2)) :=
  (show StableHlo.after hostOps3 (W6 m ρ c) (Proc.devRef .tc main_arg2) = W6 m ρ c (Proc.devRef .tc main_arg2) from by after_results).trans (w6_arg2 m ρ c)

theorem w8_arg2 : W8 m ρ c (Proc.devRef .tc main_arg2) = (m ((c : Thread nD τ).loc main_arg2)) :=
  (W8_of_ne m ρ c main_arg2 (by decide)).trans (w7_arg2 m ρ c)

theorem w1_arg3 : W1 m ρ c (Proc.devRef .tc main_arg3) = (m ((c : Thread nD τ).loc main_arg3)) :=
  (show StableHlo.after hostOps0 (W0 m ρ c) (Proc.devRef .tc main_arg3) = W0 m ρ c (Proc.devRef .tc main_arg3) from by after_results).trans (rfl : W0 m ρ c (Proc.devRef .tc main_arg3) = (m ((c : Thread nD τ).loc main_arg3)))

theorem w1_arg4 : W1 m ρ c (Proc.devRef .tc main_arg4) = (m ((c : Thread nD τ).loc main_arg4)) :=
  (show StableHlo.after hostOps0 (W0 m ρ c) (Proc.devRef .tc main_arg4) = W0 m ρ c (Proc.devRef .tc main_arg4) from by after_results).trans (rfl : W0 m ρ c (Proc.devRef .tc main_arg4) = (m ((c : Thread nD τ).loc main_arg4)))

theorem w1_arg6 : W1 m ρ c (Proc.devRef .tc main_arg6) = (m ((c : Thread nD τ).loc main_arg6)) :=
  (show StableHlo.after hostOps0 (W0 m ρ c) (Proc.devRef .tc main_arg6) = W0 m ρ c (Proc.devRef .tc main_arg6) from by after_results).trans (rfl : W0 m ρ c (Proc.devRef .tc main_arg6) = (m ((c : Thread nD τ).loc main_arg6)))

theorem w2_arg6 : W2 m ρ c (Proc.devRef .tc main_arg6) = (m ((c : Thread nD τ).loc main_arg6)) :=
  (W2_of_ne m ρ c main_arg6 (by decide)).trans (w1_arg6 m ρ c)

theorem w3_arg6 : W3 m ρ c (Proc.devRef .tc main_arg6) = (m ((c : Thread nD τ).loc main_arg6)) :=
  (show StableHlo.after hostOps1 (W2 m ρ c) (Proc.devRef .tc main_arg6) = W2 m ρ c (Proc.devRef .tc main_arg6) from by after_results).trans (w2_arg6 m ρ c)

theorem w1_arg7 : W1 m ρ c (Proc.devRef .tc main_arg7) = (m ((c : Thread nD τ).loc main_arg7)) :=
  (show StableHlo.after hostOps0 (W0 m ρ c) (Proc.devRef .tc main_arg7) = W0 m ρ c (Proc.devRef .tc main_arg7) from by after_results).trans (rfl : W0 m ρ c (Proc.devRef .tc main_arg7) = (m ((c : Thread nD τ).loc main_arg7)))

theorem w2_arg7 : W2 m ρ c (Proc.devRef .tc main_arg7) = (m ((c : Thread nD τ).loc main_arg7)) :=
  (W2_of_ne m ρ c main_arg7 (by decide)).trans (w1_arg7 m ρ c)

theorem w3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) from by after_results).trans (w2_arg7 m ρ c)

theorem w1_arg8 : W1 m ρ c (Proc.devRef .tc main_arg8) = (m ((c : Thread nD τ).loc main_arg8)) :=
  (show StableHlo.after hostOps0 (W0 m ρ c) (Proc.devRef .tc main_arg8) = W0 m ρ c (Proc.devRef .tc main_arg8) from by after_results).trans (rfl : W0 m ρ c (Proc.devRef .tc main_arg8) = (m ((c : Thread nD τ).loc main_arg8)))

theorem w2_arg8 : W2 m ρ c (Proc.devRef .tc main_arg8) = (m ((c : Thread nD τ).loc main_arg8)) :=
  (W2_of_ne m ρ c main_arg8 (by decide)).trans (w1_arg8 m ρ c)

theorem w1_arg9 : W1 m ρ c (Proc.devRef .tc main_arg9) = (m ((c : Thread nD τ).loc main_arg9)) :=
  (show StableHlo.after hostOps0 (W0 m ρ c) (Proc.devRef .tc main_arg9) = W0 m ρ c (Proc.devRef .tc main_arg9) from by after_results).trans (rfl : W0 m ρ c (Proc.devRef .tc main_arg9) = (m ((c : Thread nD τ).loc main_arg9)))

theorem w2_arg9 : W2 m ρ c (Proc.devRef .tc main_arg9) = (m ((c : Thread nD τ).loc main_arg9)) :=
  (W2_of_ne m ρ c main_arg9 (by decide)).trans (w1_arg9 m ρ c)

theorem w3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) from by after_results).trans (w2_arg9 m ρ c)

theorem w4_arg9 : W4 m ρ c (Proc.devRef .tc main_arg9) = (m ((c : Thread nD τ).loc main_arg9)) :=
  (W4_of_ne m ρ c main_arg9 (by decide)).trans (w3_arg9 m ρ c)

theorem w5_arg9 : W5 m ρ c (Proc.devRef .tc main_arg9) = (m ((c : Thread nD τ).loc main_arg9)) :=
  (show StableHlo.after hostOps2 (W4 m ρ c) (Proc.devRef .tc main_arg9) = W4 m ρ c (Proc.devRef .tc main_arg9) from by after_results).trans (w4_arg9 m ρ c)

theorem w1_arg10 : W1 m ρ c (Proc.devRef .tc main_arg10) = (m ((c : Thread nD τ).loc main_arg10)) :=
  (show StableHlo.after hostOps0 (W0 m ρ c) (Proc.devRef .tc main_arg10) = W0 m ρ c (Proc.devRef .tc main_arg10) from by after_results).trans (rfl : W0 m ρ c (Proc.devRef .tc main_arg10) = (m ((c : Thread nD τ).loc main_arg10)))

theorem w2_arg10 : W2 m ρ c (Proc.devRef .tc main_arg10) = (m ((c : Thread nD τ).loc main_arg10)) :=
  (W2_of_ne m ρ c main_arg10 (by decide)).trans (w1_arg10 m ρ c)

theorem w3_arg10 : W3 m ρ c (Proc.devRef .tc main_arg10) = (m ((c : Thread nD τ).loc main_arg10)) :=
  (show StableHlo.after hostOps1 (W2 m ρ c) (Proc.devRef .tc main_arg10) = W2 m ρ c (Proc.devRef .tc main_arg10) from by after_results).trans (w2_arg10 m ρ c)

theorem w4_arg10 : W4 m ρ c (Proc.devRef .tc main_arg10) = (m ((c : Thread nD τ).loc main_arg10)) :=
  (W4_of_ne m ρ c main_arg10 (by decide)).trans (w3_arg10 m ρ c)

theorem w5_arg10 : W5 m ρ c (Proc.devRef .tc main_arg10) = (m ((c : Thread nD τ).loc main_arg10)) :=
  (show StableHlo.after hostOps2 (W4 m ρ c) (Proc.devRef .tc main_arg10) = W4 m ρ c (Proc.devRef .tc main_arg10) from by after_results).trans (w4_arg10 m ρ c)

theorem w1_arg11 : W1 m ρ c (Proc.devRef .tc main_arg11) = (m ((c : Thread nD τ).loc main_arg11)) :=
  (show StableHlo.after hostOps0 (W0 m ρ c) (Proc.devRef .tc main_arg11) = W0 m ρ c (Proc.devRef .tc main_arg11) from by after_results).trans (rfl : W0 m ρ c (Proc.devRef .tc main_arg11) = (m ((c : Thread nD τ).loc main_arg11)))

theorem w2_arg11 : W2 m ρ c (Proc.devRef .tc main_arg11) = (m ((c : Thread nD τ).loc main_arg11)) :=
  (W2_of_ne m ρ c main_arg11 (by decide)).trans (w1_arg11 m ρ c)

theorem w3_arg11 : W3 m ρ c (Proc.devRef .tc main_arg11) = (m ((c : Thread nD τ).loc main_arg11)) :=
  (show StableHlo.after hostOps1 (W2 m ρ c) (Proc.devRef .tc main_arg11) = W2 m ρ c (Proc.devRef .tc main_arg11) from by after_results).trans (w2_arg11 m ρ c)

theorem w4_arg11 : W4 m ρ c (Proc.devRef .tc main_arg11) = (m ((c : Thread nD τ).loc main_arg11)) :=
  (W4_of_ne m ρ c main_arg11 (by decide)).trans (w3_arg11 m ρ c)

theorem w1_arg12 : W1 m ρ c (Proc.devRef .tc main_arg12) = (m ((c : Thread nD τ).loc main_arg12)) :=
  (show StableHlo.after hostOps0 (W0 m ρ c) (Proc.devRef .tc main_arg12) = W0 m ρ c (Proc.devRef .tc main_arg12) from by after_results).trans (rfl : W0 m ρ c (Proc.devRef .tc main_arg12) = (m ((c : Thread nD τ).loc main_arg12)))

theorem w2_arg12 : W2 m ρ c (Proc.devRef .tc main_arg12) = (m ((c : Thread nD τ).loc main_arg12)) :=
  (W2_of_ne m ρ c main_arg12 (by decide)).trans (w1_arg12 m ρ c)

theorem w3_arg12 : W3 m ρ c (Proc.devRef .tc main_arg12) = (m ((c : Thread nD τ).loc main_arg12)) :=
  (show StableHlo.after hostOps1 (W2 m ρ c) (Proc.devRef .tc main_arg12) = W2 m ρ c (Proc.devRef .tc main_arg12) from by after_results).trans (w2_arg12 m ρ c)

theorem w4_arg12 : W4 m ρ c (Proc.devRef .tc main_arg12) = (m ((c : Thread nD τ).loc main_arg12)) :=
  (W4_of_ne m ρ c main_arg12 (by decide)).trans (w3_arg12 m ρ c)

theorem w5_arg12 : W5 m ρ c (Proc.devRef .tc main_arg12) = (m ((c : Thread nD τ).loc main_arg12)) :=
  (show StableHlo.after hostOps2 (W4 m ρ c) (Proc.devRef .tc main_arg12) = W4 m ρ c (Proc.devRef .tc main_arg12) from by after_results).trans (w4_arg12 m ρ c)

theorem w6_arg12 : W6 m ρ c (Proc.devRef .tc main_arg12) = (m ((c : Thread nD τ).loc main_arg12)) :=
  (W6_of_ne m ρ c main_arg12 (by decide)).trans (w5_arg12 m ρ c)

theorem w7_arg12 : W7 m ρ c (Proc.devRef .tc main_arg12) = (m ((c : Thread nD τ).loc main_arg12)) :=
  (show StableHlo.after hostOps3 (W6 m ρ c) (Proc.devRef .tc main_arg12) = W6 m ρ c (Proc.devRef .tc main_arg12) from by after_results).trans (w6_arg12 m ρ c)

theorem w1_arg13 : W1 m ρ c (Proc.devRef .tc main_arg13) = (m ((c : Thread nD τ).loc main_arg13)) :=
  (show StableHlo.after hostOps0 (W0 m ρ c) (Proc.devRef .tc main_arg13) = W0 m ρ c (Proc.devRef .tc main_arg13) from by after_results).trans (rfl : W0 m ρ c (Proc.devRef .tc main_arg13) = (m ((c : Thread nD τ).loc main_arg13)))

theorem w2_arg13 : W2 m ρ c (Proc.devRef .tc main_arg13) = (m ((c : Thread nD τ).loc main_arg13)) :=
  (W2_of_ne m ρ c main_arg13 (by decide)).trans (w1_arg13 m ρ c)

theorem w3_arg13 : W3 m ρ c (Proc.devRef .tc main_arg13) = (m ((c : Thread nD τ).loc main_arg13)) :=
  (show StableHlo.after hostOps1 (W2 m ρ c) (Proc.devRef .tc main_arg13) = W2 m ρ c (Proc.devRef .tc main_arg13) from by after_results).trans (w2_arg13 m ρ c)

theorem w4_arg13 : W4 m ρ c (Proc.devRef .tc main_arg13) = (m ((c : Thread nD τ).loc main_arg13)) :=
  (W4_of_ne m ρ c main_arg13 (by decide)).trans (w3_arg13 m ρ c)

theorem w5_arg13 : W5 m ρ c (Proc.devRef .tc main_arg13) = (m ((c : Thread nD τ).loc main_arg13)) :=
  (show StableHlo.after hostOps2 (W4 m ρ c) (Proc.devRef .tc main_arg13) = W4 m ρ c (Proc.devRef .tc main_arg13) from by after_results).trans (w4_arg13 m ρ c)

theorem w6_arg13 : W6 m ρ c (Proc.devRef .tc main_arg13) = (m ((c : Thread nD τ).loc main_arg13)) :=
  (W6_of_ne m ρ c main_arg13 (by decide)).trans (w5_arg13 m ρ c)

theorem w7_arg13 : W7 m ρ c (Proc.devRef .tc main_arg13) = (m ((c : Thread nD τ).loc main_arg13)) :=
  (show StableHlo.after hostOps3 (W6 m ρ c) (Proc.devRef .tc main_arg13) = W6 m ρ c (Proc.devRef .tc main_arg13) from by after_results).trans (w6_arg13 m ρ c)

theorem w1_arg14 : W1 m ρ c (Proc.devRef .tc main_arg14) = (m ((c : Thread nD τ).loc main_arg14)) :=
  (show StableHlo.after hostOps0 (W0 m ρ c) (Proc.devRef .tc main_arg14) = W0 m ρ c (Proc.devRef .tc main_arg14) from by after_results).trans (rfl : W0 m ρ c (Proc.devRef .tc main_arg14) = (m ((c : Thread nD τ).loc main_arg14)))

theorem w2_arg14 : W2 m ρ c (Proc.devRef .tc main_arg14) = (m ((c : Thread nD τ).loc main_arg14)) :=
  (W2_of_ne m ρ c main_arg14 (by decide)).trans (w1_arg14 m ρ c)

theorem w3_arg14 : W3 m ρ c (Proc.devRef .tc main_arg14) = (m ((c : Thread nD τ).loc main_arg14)) :=
  (show StableHlo.after hostOps1 (W2 m ρ c) (Proc.devRef .tc main_arg14) = W2 m ρ c (Proc.devRef .tc main_arg14) from by after_results).trans (w2_arg14 m ρ c)

theorem w4_arg14 : W4 m ρ c (Proc.devRef .tc main_arg14) = (m ((c : Thread nD τ).loc main_arg14)) :=
  (W4_of_ne m ρ c main_arg14 (by decide)).trans (w3_arg14 m ρ c)

theorem w5_arg14 : W5 m ρ c (Proc.devRef .tc main_arg14) = (m ((c : Thread nD τ).loc main_arg14)) :=
  (show StableHlo.after hostOps2 (W4 m ρ c) (Proc.devRef .tc main_arg14) = W4 m ρ c (Proc.devRef .tc main_arg14) from by after_results).trans (w4_arg14 m ρ c)

theorem w6_arg14 : W6 m ρ c (Proc.devRef .tc main_arg14) = (m ((c : Thread nD τ).loc main_arg14)) :=
  (W6_of_ne m ρ c main_arg14 (by decide)).trans (w5_arg14 m ρ c)

theorem w1_arg15 : W1 m ρ c (Proc.devRef .tc main_arg15) = (m ((c : Thread nD τ).loc main_arg15)) :=
  (show StableHlo.after hostOps0 (W0 m ρ c) (Proc.devRef .tc main_arg15) = W0 m ρ c (Proc.devRef .tc main_arg15) from by after_results).trans (rfl : W0 m ρ c (Proc.devRef .tc main_arg15) = (m ((c : Thread nD τ).loc main_arg15)))

theorem w2_arg15 : W2 m ρ c (Proc.devRef .tc main_arg15) = (m ((c : Thread nD τ).loc main_arg15)) :=
  (W2_of_ne m ρ c main_arg15 (by decide)).trans (w1_arg15 m ρ c)

theorem w3_arg15 : W3 m ρ c (Proc.devRef .tc main_arg15) = (m ((c : Thread nD τ).loc main_arg15)) :=
  (show StableHlo.after hostOps1 (W2 m ρ c) (Proc.devRef .tc main_arg15) = W2 m ρ c (Proc.devRef .tc main_arg15) from by after_results).trans (w2_arg15 m ρ c)

theorem w4_arg15 : W4 m ρ c (Proc.devRef .tc main_arg15) = (m ((c : Thread nD τ).loc main_arg15)) :=
  (W4_of_ne m ρ c main_arg15 (by decide)).trans (w3_arg15 m ρ c)

theorem w5_arg15 : W5 m ρ c (Proc.devRef .tc main_arg15) = (m ((c : Thread nD τ).loc main_arg15)) :=
  (show StableHlo.after hostOps2 (W4 m ρ c) (Proc.devRef .tc main_arg15) = W4 m ρ c (Proc.devRef .tc main_arg15) from by after_results).trans (w4_arg15 m ρ c)

theorem w6_arg15 : W6 m ρ c (Proc.devRef .tc main_arg15) = (m ((c : Thread nD τ).loc main_arg15)) :=
  (W6_of_ne m ρ c main_arg15 (by decide)).trans (w5_arg15 m ρ c)

theorem w7_arg15 : W7 m ρ c (Proc.devRef .tc main_arg15) = (m ((c : Thread nD τ).loc main_arg15)) :=
  (show StableHlo.after hostOps3 (W6 m ρ c) (Proc.devRef .tc main_arg15) = W6 m ρ c (Proc.devRef .tc main_arg15) from by after_results).trans (w6_arg15 m ρ c)

theorem w8_arg15 : W8 m ρ c (Proc.devRef .tc main_arg15) = (m ((c : Thread nD τ).loc main_arg15)) :=
  (W8_of_ne m ρ c main_arg15 (by decide)).trans (w7_arg15 m ρ c)

theorem w1_arg16 : W1 m ρ c (Proc.devRef .tc main_arg16) = (m ((c : Thread nD τ).loc main_arg16)) :=
  (show StableHlo.after hostOps0 (W0 m ρ c) (Proc.devRef .tc main_arg16) = W0 m ρ c (Proc.devRef .tc main_arg16) from by after_results).trans (rfl : W0 m ρ c (Proc.devRef .tc main_arg16) = (m ((c : Thread nD τ).loc main_arg16)))

theorem w2_arg16 : W2 m ρ c (Proc.devRef .tc main_arg16) = (m ((c : Thread nD τ).loc main_arg16)) :=
  (W2_of_ne m ρ c main_arg16 (by decide)).trans (w1_arg16 m ρ c)

theorem w3_arg16 : W3 m ρ c (Proc.devRef .tc main_arg16) = (m ((c : Thread nD τ).loc main_arg16)) :=
  (show StableHlo.after hostOps1 (W2 m ρ c) (Proc.devRef .tc main_arg16) = W2 m ρ c (Proc.devRef .tc main_arg16) from by after_results).trans (w2_arg16 m ρ c)

theorem w4_arg16 : W4 m ρ c (Proc.devRef .tc main_arg16) = (m ((c : Thread nD τ).loc main_arg16)) :=
  (W4_of_ne m ρ c main_arg16 (by decide)).trans (w3_arg16 m ρ c)

theorem w5_arg16 : W5 m ρ c (Proc.devRef .tc main_arg16) = (m ((c : Thread nD τ).loc main_arg16)) :=
  (show StableHlo.after hostOps2 (W4 m ρ c) (Proc.devRef .tc main_arg16) = W4 m ρ c (Proc.devRef .tc main_arg16) from by after_results).trans (w4_arg16 m ρ c)

theorem w6_arg16 : W6 m ρ c (Proc.devRef .tc main_arg16) = (m ((c : Thread nD τ).loc main_arg16)) :=
  (W6_of_ne m ρ c main_arg16 (by decide)).trans (w5_arg16 m ρ c)

theorem w7_arg16 : W7 m ρ c (Proc.devRef .tc main_arg16) = (m ((c : Thread nD τ).loc main_arg16)) :=
  (show StableHlo.after hostOps3 (W6 m ρ c) (Proc.devRef .tc main_arg16) = W6 m ρ c (Proc.devRef .tc main_arg16) from by after_results).trans (w6_arg16 m ρ c)

theorem w8_arg16 : W8 m ρ c (Proc.devRef .tc main_arg16) = (m ((c : Thread nD τ).loc main_arg16)) :=
  (W8_of_ne m ρ c main_arg16 (by decide)).trans (w7_arg16 m ρ c)

/-! ## The edge lists' two rows (sources, destinations), computed by the first stretch and kept to the last region -/

set_option maxHeartbeats 2000000 in
theorem w1_v1 : W1 m ρ c (Proc.devRef .tc main_v1) = Cert.ReferenceIdeal.Read.val_main_v1 (m ((c : Thread nD τ).loc main_arg1)) := by
  show StableHlo.after hostOps0 (W0 m ρ c) (Proc.devRef .tc main_v1) = _
  after_results
  all_goals rfl

theorem w2_v1 : W2 m ρ c (Proc.devRef .tc main_v1) = Cert.ReferenceIdeal.Read.val_main_v1 (m ((c : Thread nD τ).loc main_arg1)) :=
  (W2_of_ne m ρ c main_v1 (by decide)).trans (w1_v1 m ρ c)

theorem w3_v1 : W3 m ρ c (Proc.devRef .tc main_v1) = Cert.ReferenceIdeal.Read.val_main_v1 (m ((c : Thread nD τ).loc main_arg1)) :=
  (show StableHlo.after hostOps1 (W2 m ρ c) (Proc.devRef .tc main_v1) = W2 m ρ c (Proc.devRef .tc main_v1) from by after_results).trans (w2_v1 m ρ c)

theorem w4_v1 : W4 m ρ c (Proc.devRef .tc main_v1) = Cert.ReferenceIdeal.Read.val_main_v1 (m ((c : Thread nD τ).loc main_arg1)) :=
  (W4_of_ne m ρ c main_v1 (by decide)).trans (w3_v1 m ρ c)

theorem w5_v1 : W5 m ρ c (Proc.devRef .tc main_v1) = Cert.ReferenceIdeal.Read.val_main_v1 (m ((c : Thread nD τ).loc main_arg1)) :=
  (show StableHlo.after hostOps2 (W4 m ρ c) (Proc.devRef .tc main_v1) = W4 m ρ c (Proc.devRef .tc main_v1) from by after_results).trans (w4_v1 m ρ c)

theorem w6_v1 : W6 m ρ c (Proc.devRef .tc main_v1) = Cert.ReferenceIdeal.Read.val_main_v1 (m ((c : Thread nD τ).loc main_arg1)) :=
  (W6_of_ne m ρ c main_v1 (by decide)).trans (w5_v1 m ρ c)

set_option maxHeartbeats 2000000 in
theorem w1_v3 : W1 m ρ c (Proc.devRef .tc main_v3) = Cert.ReferenceIdeal.Read.val_main_v3 (m ((c : Thread nD τ).loc main_arg1)) := by
  show StableHlo.after hostOps0 (W0 m ρ c) (Proc.devRef .tc main_v3) = _
  after_results
  all_goals rfl

theorem w2_v3 : W2 m ρ c (Proc.devRef .tc main_v3) = Cert.ReferenceIdeal.Read.val_main_v3 (m ((c : Thread nD τ).loc main_arg1)) :=
  (W2_of_ne m ρ c main_v3 (by decide)).trans (w1_v3 m ρ c)

theorem w3_v3 : W3 m ρ c (Proc.devRef .tc main_v3) = Cert.ReferenceIdeal.Read.val_main_v3 (m ((c : Thread nD τ).loc main_arg1)) :=
  (show StableHlo.after hostOps1 (W2 m ρ c) (Proc.devRef .tc main_v3) = W2 m ρ c (Proc.devRef .tc main_v3) from by after_results).trans (w2_v3 m ρ c)

theorem w4_v3 : W4 m ρ c (Proc.devRef .tc main_v3) = Cert.ReferenceIdeal.Read.val_main_v3 (m ((c : Thread nD τ).loc main_arg1)) :=
  (W4_of_ne m ρ c main_v3 (by decide)).trans (w3_v3 m ρ c)

theorem w5_v3 : W5 m ρ c (Proc.devRef .tc main_v3) = Cert.ReferenceIdeal.Read.val_main_v3 (m ((c : Thread nD τ).loc main_arg1)) :=
  (show StableHlo.after hostOps2 (W4 m ρ c) (Proc.devRef .tc main_v3) = W4 m ρ c (Proc.devRef .tc main_v3) from by after_results).trans (w4_v3 m ρ c)

theorem w6_v3 : W6 m ρ c (Proc.devRef .tc main_v3) = Cert.ReferenceIdeal.Read.val_main_v3 (m ((c : Thread nD τ).loc main_arg1)) :=
  (W6_of_ne m ρ c main_v3 (by decide)).trans (w5_v3 m ρ c)

/-! ## Layer 1: the stretch before region 0, and the region -/

set_option maxHeartbeats 2000000 in
/-- The neighbour sums of the input features: the first stretch's gather and scatter-add, the same operations of
    the same arrays as the reference's. -/
theorem w1_agg : W1 m ρ c (Proc.devRef .tc main_v13) = Cert.ReferenceIdeal.Read.val_main_v13 (m ((c : Thread nD τ).loc main_arg0)) (m ((c : Thread nD τ).loc main_arg1)) := by
  show StableHlo.after hostOps0 (W0 m ρ c) (Proc.devRef .tc main_v13) = _
  after_results
  all_goals rfl

set_option maxHeartbeats 2000000 in
/-- The bias vector laid out as a row. -/
theorem w1_bias : W1 m ρ c (Proc.devRef .tc main_v14) = shapeCast S1x64 (m ((c : Thread nD τ).loc main_arg5)) shapeCasts_S64_S1x64 := by
  show StableHlo.after hostOps0 (W0 m ρ c) (Proc.devRef .tc main_v14) = _
  after_results
  all_goals rfl

set_option maxHeartbeats 2000000 in
/-- REGION 0's output array is the reference's layer 1: the region leaves the layer of the arrays it was entered with
    (`Layer0.final`), those arrays are the reference's operands, and the kernel's grouping (agg.Wrel + x.Wroot) + b is the
    reference's (agg.Wrel + b) + x.Wroot (`host_pos_eq`). -/
theorem out0 : W2 m ρ c (Proc.devRef .tc main_v15) = Cert.ReferenceIdeal.Read.val_main_v20 (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Layer0.final (V1 m ρ) c).trans ?_)
  show Layer0.G (W1 m ρ c (Proc.devRef .tc main_v13)) (W1 m ρ c (Proc.devRef .tc main_arg0)) (W1 m ρ c (Proc.devRef .tc main_arg3))
      (W1 m ρ c (Proc.devRef .tc main_arg4)) (W1 m ρ c (Proc.devRef .tc main_v14)) = _
  rw [w1_agg m ρ c, w1_arg0 m ρ c, w1_arg3 m ρ c, w1_arg4 m ρ c, w1_bias m ρ c]
  exact (host_pos_eq (M := 50000) (K := 128) (N := 64) (Cert.ReferenceIdeal.Read.val_main_v13 (m ((c : Thread nD τ).loc main_arg0)) (m ((c : Thread nD τ).loc main_arg1))) (m ((c : Thread nD τ).loc main_arg0)) (m ((c : Thread nD τ).loc main_arg3)) (m ((c : Thread nD τ).loc main_arg4)) (m ((c : Thread nD τ).loc main_arg5)) _ _ _ _ _).symm

/-! ## Layer 2: the stretch before region 1, and the region -/

set_option maxHeartbeats 2000000 in
/-- The neighbour sums of layer 1's output: the stretch's gather and scatter-add of the previous region's array
    (which is the reference's layer 1, `out0`) along the kept edge rows: the reference's own operations. -/
theorem w3_agg : W3 m ρ c (Proc.devRef .tc main_v25) = Cert.ReferenceIdeal.Read.val_main_v30 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v25) = _
  after_results
  rw [w2_v1 m ρ c, w2_v3 m ρ c, out0 m ρ c]
  all_goals rfl

set_option maxHeartbeats 2000000 in
/-- The bias vector laid out as a row. -/
theorem w3_bias : W3 m ρ c (Proc.devRef .tc main_v26) = shapeCast S1x128 (m ((c : Thread nD τ).loc main_arg8)) shapeCasts_S128_S1x128 := by
  show StableHlo.after hostOps1 (W2 m ρ c) (Proc.devRef .tc main_v26) = _
  after_results
  rw [w2_arg8 m ρ c]
  all_goals rfl

/-- The previous layer's output, untouched by the stretch. -/
theorem w3_h : W3 m ρ c (Proc.devRef .tc main_v15) = Cert.ReferenceIdeal.Read.val_main_v20 (m ((c : Thread nD τ).loc main_arg0)) (m ((c : Thread nD τ).loc main_arg1)) (m ((c : Thread nD τ).loc main_arg3)) (m ((c : Thread nD τ).loc main_arg4)) (m ((c : Thread nD τ).loc main_arg5)) :=
  (show StableHlo.after hostOps1 (W2 m ρ c) (Proc.devRef .tc main_v15) = W2 m ρ c (Proc.devRef .tc main_v15) from by after_results).trans (out0 m ρ c)

set_option maxHeartbeats 2000000 in
/-- REGION 1's output array is the reference's layer 2: the region leaves the layer of the arrays it was entered with
    (`Layer1.final`), those arrays are the reference's operands, and the kernel's grouping (agg.Wrel + x.Wroot) + b is the
    reference's (agg.Wrel + b) + x.Wroot (`host_pos_eq`). -/
theorem out1 : W4 m ρ c (Proc.devRef .tc main_v27) = Cert.ReferenceIdeal.Read.val_main_v37 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Layer1.final (V3 m ρ) c).trans ?_)
  show Layer1.G (W3 m ρ c (Proc.devRef .tc main_v25)) (W3 m ρ c (Proc.devRef .tc main_v15)) (W3 m ρ c (Proc.devRef .tc main_arg6))
      (W3 m ρ c (Proc.devRef .tc main_arg7)) (W3 m ρ c (Proc.devRef .tc main_v26)) = _
  rw [w3_agg m ρ c, w3_h m ρ c, w3_arg6 m ρ c, w3_arg7 m ρ c, w3_bias m ρ c]
  exact (host_pos_eq (M := 50000) (K := 64) (N := 128) (Cert.ReferenceIdeal.Read.val_main_v30 (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Read.val_main_v20 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) _ _ _ _ _).symm

/-! ## Layer 3: the stretch before region 2, and the region -/

set_option maxHeartbeats 2000000 in
/-- The neighbour sums of layer 2's output: the stretch's gather and scatter-add of the previous region's array
    (which is the reference's layer 2, `out1`) along the kept edge rows: the reference's own operations. -/
theorem w5_agg : W5 m ρ c (Proc.devRef .tc main_v37) = Cert.ReferenceIdeal.Read.val_main_v47 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v37) = _
  after_results
  rw [w4_v1 m ρ c, w4_v3 m ρ c, out1 m ρ c]
  all_goals rfl

set_option maxHeartbeats 2000000 in
/-- The bias vector laid out as a row. -/
theorem w5_bias : W5 m ρ c (Proc.devRef .tc main_v38) = shapeCast S1x192 (m ((c : Thread nD τ).loc main_arg11)) shapeCasts_S192_S1x192 := by
  show StableHlo.after hostOps2 (W4 m ρ c) (Proc.devRef .tc main_v38) = _
  after_results
  rw [w4_arg11 m ρ c]
  all_goals rfl

/-- The previous layer's output, untouched by the stretch. -/
theorem w5_h : W5 m ρ c (Proc.devRef .tc main_v27) = Cert.ReferenceIdeal.Read.val_main_v37 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (show StableHlo.after hostOps2 (W4 m ρ c) (Proc.devRef .tc main_v27) = W4 m ρ c (Proc.devRef .tc main_v27) from by after_results).trans (out1 m ρ c)

set_option maxHeartbeats 2000000 in
/-- REGION 2's output array is the reference's layer 3: the region leaves the layer of the arrays it was entered with
    (`Layer2.final`), those arrays are the reference's operands, and the kernel's grouping (agg.Wrel + x.Wroot) + b is the
    reference's (agg.Wrel + b) + x.Wroot (`host_pos_eq`). -/
theorem out2 : W6 m ρ c (Proc.devRef .tc main_v39) = Cert.ReferenceIdeal.Read.val_main_v54 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Layer2.final (V5 m ρ) c).trans ?_)
  show Layer2.G (W5 m ρ c (Proc.devRef .tc main_v37)) (W5 m ρ c (Proc.devRef .tc main_v27)) (W5 m ρ c (Proc.devRef .tc main_arg9))
      (W5 m ρ c (Proc.devRef .tc main_arg10)) (W5 m ρ c (Proc.devRef .tc main_v38)) = _
  rw [w5_agg m ρ c, w5_h m ρ c, w5_arg9 m ρ c, w5_arg10 m ρ c, w5_bias m ρ c]
  exact (host_pos_eq (M := 50000) (K := 128) (N := 192) (Cert.ReferenceIdeal.Read.val_main_v47 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.ReferenceIdeal.Read.val_main_v37 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)) _ _ _ _ _).symm

/-! ## Layer 4: the stretch before region 3, and the region -/

set_option maxHeartbeats 2000000 in
/-- The neighbour sums of layer 3's output: the stretch's gather and scatter-add of the previous region's array
    (which is the reference's layer 3, `out2`) along the kept edge rows: the reference's own operations. -/
theorem w7_agg : W7 m ρ c (Proc.devRef .tc main_v49) = Cert.ReferenceIdeal.Read.val_main_v64 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v49) = _
  after_results
  rw [w6_v1 m ρ c, w6_v3 m ρ c, out2 m ρ c]
  all_goals rfl

set_option maxHeartbeats 2000000 in
/-- The bias vector laid out as a row. -/
theorem w7_bias : W7 m ρ c (Proc.devRef .tc main_v50) = shapeCast S1x64 (m ((c : Thread nD τ).loc main_arg14)) shapeCasts_S64_S1x64 := by
  show StableHlo.after hostOps3 (W6 m ρ c) (Proc.devRef .tc main_v50) = _
  after_results
  rw [w6_arg14 m ρ c]
  all_goals rfl

/-- The previous layer's output, untouched by the stretch. -/
theorem w7_h : W7 m ρ c (Proc.devRef .tc main_v39) = Cert.ReferenceIdeal.Read.val_main_v54 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (show StableHlo.after hostOps3 (W6 m ρ c) (Proc.devRef .tc main_v39) = W6 m ρ c (Proc.devRef .tc main_v39) from by after_results).trans (out2 m ρ c)

set_option maxHeartbeats 2000000 in
/-- REGION 3's output array is the reference's layer 4: the region leaves the layer of the arrays it was entered with
    (`Layer3.final`), those arrays are the reference's operands, and the kernel's grouping (agg.Wrel + x.Wroot) + b is the
    reference's (agg.Wrel + b) + x.Wroot (`host_eq`). -/
theorem out3 : W8 m ρ c (Proc.devRef .tc main_v51) = Cert.ReferenceIdeal.Read.val_main_v70 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 5).trans ((Layer3.final (V7 m ρ) c).trans ?_)
  show Layer3.G (W7 m ρ c (Proc.devRef .tc main_v49)) (W7 m ρ c (Proc.devRef .tc main_v39)) (W7 m ρ c (Proc.devRef .tc main_arg12))
      (W7 m ρ c (Proc.devRef .tc main_arg13)) (W7 m ρ c (Proc.devRef .tc main_v50)) = _
  rw [w7_agg m ρ c, w7_h m ρ c, w7_arg12 m ρ c, w7_arg13 m ρ c, w7_bias m ρ c]
  exact (host_eq (M := 50000) (K := 192) (N := 64) (Cert.ReferenceIdeal.Read.val_main_v64 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Cert.ReferenceIdeal.Read.val_main_v54 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14)) _ _ _).symm

/-! ## The last stretch: mean pooling over the graphs and the linear head, the reference's own operations -/

set_option maxHeartbeats 2000000 in
/-- THE RESULT: the last boundary's contents at the result buffer is the reference's result term of the arguments. -/
theorem result : W9 m ρ c (Proc.devRef .tc main_v67) = Cert.ReferenceIdeal.Read.val_main_v86 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps4 (W8 m ρ c) (Proc.devRef .tc main_v67) = _
  after_results
  rw [out3 m ρ c, w8_arg2 m ρ c, w8_arg15 m ρ c, w8_arg16 m ρ c]
  all_goals rfl

end Cert.KernelIdeal.Fold

end
-- ==== Proof.lean ====
/-
  Four stacked graph-convolution layers, a mean pool over the graphs and a linear head: the kernel's program against
  its plain reference, equal on every extended real.

  A layer is  out = agg . Wrel + x . Wroot + b  (then the positive part, except in the last layer), where agg sums each
  node's neighbours' features. The reference writes it (agg.Wrel + b) + x.Wroot with two whole matrix products; the kernel
  leaves the gather and the scatter-add to the host, exactly as the reference does, and computes
  (agg.Wrel + x.Wroot) + b in a region that walks the 50000 rows in ten blocks of 5000, its operands rounded to a narrower
  float format first. At the ideal values the rounding is the identity, a product accumulated from zero is the plain sum
  of products, and a row of the layer depends only on the same rows of agg and x, so each region's array ends holding the
  layer of the whole arrays; the two groupings of the three summands agree because addition of extended reals is
  commutative and associative. No finiteness of the inputs is used.

  * LibCombineLayer: the layer over arbitrary extents, the matrix unit's spelling, the host's spelling, the regrouping.
  * KernelLayer0 .. 3: each region's output array as the layer of the arrays it was entered with.
  * KernelRun: the kernel's program run with its result buffer named.
  * KernelFold: the kernel's buffers at every boundary are the reference's stages; the result is the reference's term.
  The idealization rewrote nothing, so the kernel's idealized program is its own text read at the ideal values.
-/
import proofs.«129375_j25383256719506_1_alg».proof.Defs
import proofs.«129375_j25383256719506_1_alg».proof.Proof.Gen.Kernel
import proofs.«129375_j25383256719506_1_alg».proof.Proof.Gen.Kernel.Skeleton
import proofs.«129375_j25383256719506_1_alg».proof.Proof.Gen.Kernel.Launch
import proofs.«129375_j25383256719506_1_alg».proof.Proof.Gen.Kernel.Points
import proofs.«129375_j25383256719506_1_alg».proof.Proof.Gen.Kernel.Frame
import proofs.«129375_j25383256719506_1_alg».proof.Proof.Gen.KernelIdeal
import proofs.«129375_j25383256719506_1_alg».proof.Proof.Gen.KernelIdeal.Skeleton
import proofs.«129375_j25383256719506_1_alg».proof.Proof.Gen.KernelIdeal.Launch
import proofs.«129375_j25383256719506_1_alg».proof.Proof.Gen.KernelIdeal.Points
import proofs.«129375_j25383256719506_1_alg».proof.Proof.Gen.KernelIdeal.Frame
import proofs.«129375_j25383256719506_1_alg».proof.Proof.Gen.ReferenceIdeal
import proofs.«129375_j25383256719506_1_alg».proof.Proof.Gen.ReferenceIdeal.Run
import proofs.«129375_j25383256719506_1_alg».proof.Proof.Gen.ReferenceIdeal.Read
import proofs.«129375_j25383256719506_1_alg».proof.Proof.Gen.Pre_finite_inputs
import proofs.«129375_j25383256719506_1_alg».proof.Proof.KernelRun
import proofs.«129375_j25383256719506_1_alg».proof.Proof.KernelFold
import Idealize.ShloMosaic.Adequacy
import Idealize.ShloMosaic.Init

noncomputable section

namespace Cert.Proof

open Idealize.ShloMosaic Idealize.ShloMosaic.TcCoe Idealize.SL.Sem

/-- The printed kernel runs without a fault and leaves its arguments as launched. -/
theorem frame_kernel : Cert.frame_Kernel := fun m ρ _ => Cert.Kernel.Gen.frame m ρ

/-- So does its idealized program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 2000000 in
/-- Both programs end with the reference's result term of the (agreeing) argument arrays: the kernel's by the fold
    through its boundaries, the reference's by its own run. -/
theorem algebraic : Cert.algebraic_KernelIdeal_ReferenceIdeal := by
  intro m ρ m' ρ' _ hagree
  refine ⟨fun c => Cert.ReferenceIdeal.Read.val_main_v86 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.Fold.result m ρ c), (h c).2⟩)
      (Cert.KernelIdeal.Valued.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v86_eq, e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
